-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x80x80x85 : Shape := ⟨5, ![16, 3, 80, 80, 85]⟩
abbrev S16x3x40x40x85 : Shape := ⟨5, ![16, 3, 40, 40, 85]⟩
abbrev S16x3x20x20x85 : Shape := ⟨5, ![16, 3, 20, 20, 85]⟩
abbrev S1x4 : Shape := ⟨2, ![1, 4]⟩
abbrev S_ : Shape := ⟨0, ![]⟩

class Facts : Prop where
  bcast_S_S16x3x80x80x85 : S_.BroadcastsInDim S16x3x80x80x85 (![] : Fin 0 → Fin S16x3x80x80x85.rank)
  reducesTo_S16x3x80x80x85_S_d0_1_2_3_4 : S16x3x80x80x85.ReducesTo [0, 1, 2, 3, 4] S_
  h_S_ : 0 < S_.numel
  bcast_S_S16x3x40x40x85 : S_.BroadcastsInDim S16x3x40x40x85 (![] : Fin 0 → Fin S16x3x40x40x85.rank)
  reducesTo_S16x3x40x40x85_S_d0_1_2_3_4 : S16x3x40x40x85.ReducesTo [0, 1, 2, 3, 4] S_
  bcast_S_S16x3x20x20x85 : S_.BroadcastsInDim S16x3x20x20x85 (![] : Fin 0 → Fin S16x3x20x20x85.rank)
  reducesTo_S16x3x20x20x85_S_d0_1_2_3_4 : S16x3x20x20x85.ReducesTo [0, 1, 2, 3, 4] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_v13 : IVec S_ 1) (main_v16 : IVec S1x4 1) : IVec S_ 1 :=
  let main_c_5 : IVec S_ 1 := constantI S_ 1 1#1
  let main_v17 : IVec S_ 1 := (fun x v => Host.reduce IntOp.andi x v reducesTo_S1x4_S_d0_1 h_S_) main_v16 main_c_5
  let main_v18 : IVec S_ 1 := andi main_v13 main_v17
  main_v18

def fn {F : FTy → Type} [FloatOps F] (main_arg0 : FVec F S16x3x80x80x85 .f32) (main_arg1 : FVec F S16x3x40x40x85 .f32) (main_arg2 : FVec F S16x3x20x20x85 .f32) (main_arg3 : FVec F S1x4 .f32) : IVec S_ 1 :=
  let main_v0 : FVec F S16x3x80x80x85 .f32 := Host.absf main_arg0
  let main_cst : FVec F S_ .f32 := constant S_ .f32 0x7F800000#32
  let main_v1 : FVec F S16x3x80x80x85 .f32 := broadcastInDim S16x3x80x80x85 ![] bcast_S_S16x3x80x80x85 main_cst
  let main_v2 : IVec S16x3x80x80x85 1 := cmpf .olt main_v0 main_v1
  let main_c : IVec S_ 1 := constantI S_ 1 1#1
  let main_v3 : IVec S_ 1 := (fun x v => Host.reduce IntOp.andi x v reducesTo_S16x3x80x80x85_S_d0_1_2_3_4 h_S_) main_v2 main_c
  let main_v4 : FVec F S16x3x40x40x85 .f32 := Host.absf main_arg1
  let main_cst_0 : FVec F S_ .f32 := constant S_ .f32 0x7F800000#32
  let main_v5 : FVec F S16x3x40x40x85 .f32 := broadcastInDim S16x3x40x40x85 ![] bcast_S_S16x3x40x40x85 main_cst_0
  let main_v6 : IVec S16x3x40x40x85 1 := cmpf .olt main_v4 main_v5
  let main_c_1 : IVec S_ 1 := constantI S_ 1 1#1
  let main_v7 : IVec S_ 1 := (fun x v => Host.reduce IntOp.andi x v reducesTo_S16x3x40x40x85_S_d0_1_2_3_4 h_S_) main_v6 main_c_1
  let main_v8 : IVec S_ 1 := andi main_v3 main_v7
  let main_v9 : FVec F S16x3x20x20x85 .f32 := Host.absf main_arg2
  let main_cst_2 : FVec F S_ .f32 := constant S_ .f32 0x7F800000#32
  let main_v10 : FVec F S16x3x20x20x85 .f32 := broadcastInDim S16x3x20x20x85 ![] bcast_S_S16x3x20x20x85 main_cst_2
  let main_v11 : IVec S16x3x20x20x85 1 := cmpf .olt main_v9 main_v10
  let main_c_3 : IVec S_ 1 := constantI S_ 1 1#1
  let main_v12 : IVec S_ 1 := (fun x v => Host.reduce IntOp.andi x v reducesTo_S16x3x20x20x85_S_d0_1_2_3_4 h_S_) main_v11 main_c_3
  let main_v13 : IVec S_ 1 := andi main_v8 main_v12
  let main_v14 : FVec F S1x4 .f32 := Host.absf main_arg3
  let main_cst_4 : FVec F S_ .f32 := constant S_ .f32 0x7F800000#32
  let main_v15 : FVec F S1x4 .f32 := broadcastInDim S1x4 ![] bcast_S_S1x4 main_cst_4
  let main_v16 : IVec S1x4 1 := cmpf .olt main_v14 main_v15
  fn_part1 (F := F) main_v13 main_v16
-- ==== Kernel.lean ====
abbrev S16x3x80x80x85 : Shape := ⟨5, ![16, 3, 80, 80, 85]⟩
abbrev S16x3x40x40x85 : Shape := ⟨5, ![16, 3, 40, 40, 85]⟩
abbrev S16x3x20x20x85 : Shape := ⟨5, ![16, 3, 20, 20, 85]⟩
abbrev S1x4 : Shape := ⟨2, ![1, 4]⟩
abbrev S16x19200x85 : Shape := ⟨3, ![16, 19200, 85]⟩
abbrev S16x4800x85 : Shape := ⟨3, ![16, 4800, 85]⟩
abbrev S16x1200x85 : Shape := ⟨3, ![16, 1200, 85]⟩
abbrev S16x25200x85 : Shape := ⟨3, ![16, 25200, 85]⟩
abbrev S1x1200x85 : Shape := ⟨3, ![1, 1200, 85]⟩
abbrev S1200x85 : Shape := ⟨2, ![1200, 85]⟩
abbrev S1200x1 : Shape := ⟨2, ![1200, 1]⟩
abbrev S1200x4 : Shape := ⟨2, ![1200, 4]⟩
abbrev S1200x81 : Shape := ⟨2, ![1200, 81]⟩

abbrev nBuf : Space → Nat
  | .hbm => 8
  | .vmem => 8
  | .smem => 0
  | _ => 0

abbrev bufTy : (tb : Table) → Fin (tcTables nBuf tb) → BufTy
  | .hbm, ⟨0, _⟩ => ⟨S16x3x80x80x85, .f32⟩
  | .hbm, ⟨1, _⟩ => ⟨S16x3x40x40x85, .f32⟩
  | .hbm, ⟨2, _⟩ => ⟨S16x3x20x20x85, .f32⟩
  | .hbm, ⟨3, _⟩ => ⟨S1x4, .f32⟩
  | .hbm, ⟨4, _⟩ => ⟨S16x19200x85, .f32⟩
  | .hbm, ⟨5, _⟩ => ⟨S16x4800x85, .f32⟩
  | .hbm, ⟨6, _⟩ => ⟨S16x1200x85, .f32⟩
  | .hbm, ⟨7, _⟩ => ⟨S16x25200x85, .f32⟩
  | .local _ .vmem, ⟨0, _⟩ => ⟨S1x1200x85, .f32⟩
  | .local _ .vmem, ⟨1, _⟩ => ⟨S1x1200x85, .f32⟩
  | .local _ .vmem, ⟨2, _⟩ => ⟨S1x1200x85, .f32⟩
  | .local _ .vmem, ⟨3, _⟩ => ⟨S1x1200x85, .f32⟩
  | .local _ .vmem, ⟨4, _⟩ => ⟨S1x1200x85, .f32⟩
  | .local _ .vmem, ⟨5, _⟩ => ⟨S1x1200x85, .f32⟩
  | .local _ .vmem, ⟨6, _⟩ => ⟨S1x1200x85, .f32⟩
  | .local _ .vmem, ⟨7, _⟩ => ⟨S1x1200x85, .f32⟩
  | _, _ => ⟨S16x3x80x80x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 21], ![false, false]⟩

def k0_cond1 (i : grid0.Coords) : BitVec 1 :=
  let arg1 : BitVec 32 := BitVec.ofNat 32 (i 1).val
  let c16_i32 : BitVec 32 := 16#32
  let v0 : BitVec 1 := Scalar.cmpi .slt arg1 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c16_i32_0 : BitVec 32 := 16#32
  let v3 : BitVec 1 := Scalar.cmpi .sge arg1 c16_i32_0
  let c20_i32 : BitVec 32 := 20#32
  let v4 : BitVec 1 := Scalar.cmpi .slt arg1 c20_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c20_i32_2 : BitVec 32 := 20#32
  let v8 : BitVec 1 := Scalar.cmpi .sge arg1 c20_i32_2
  let v9 : BitVec 32 := Scalar.extui v8
  let c0_i32_3 : BitVec 32 := 0#32
  let v10 : BitVec 1 := Scalar.cmpi .ne v9 c0_i32_3
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c15_i32 : BitVec 32 := 15#32
  let v0 : BitVec 32 := Scalar.maxsi c0_i32 arg1
  let v1 : BitVec 32 := Scalar.minsi c15_i32 v0
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1200x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1200x85 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1200x85 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1200x85 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16x3x80x80x85_S16x19200x85 : S16x3x80x80x85.ShapeCasts S16x19200x85
  shapeCasts_S16x3x40x40x85_S16x4800x85 : S16x3x40x40x85.ShapeCasts S16x4800x85
  shapeCasts_S16x3x20x20x85_S16x1200x85 : S16x3x20x20x85.ShapeCasts S16x1200x85
  inb_S1x1200x85_S1x1200x85_0_0_0 : ∀ a, (![0, 0, 0] : Fin 3 → Nat) a + S1x1200x85.size a ≤ S1x1200x85.size a
  h_S1x1200x85 : 0 < S1x1200x85.numel
  shapeCasts_S1x1200x85_S1200x85 : S1x1200x85.ShapeCasts S1200x85
  slices_S1200x85_o0_0_S1200x1 : S1200x85.Slices ![0, 0] S1200x1
  slices_S1200x85_o0_1_S1200x1 : S1200x85.Slices ![0, 1] S1200x1
  slices_S1200x85_o0_2_S1200x1 : S1200x85.Slices ![0, 2] S1200x1
  slices_S1200x85_o0_3_S1200x1 : S1200x85.Slices ![0, 3] S1200x1
  concatenates_S1200x1_S1200x1_S1200x1_S1200x1_S1200x4_d1 : Shape.Concatenates [S1200x1, S1200x1, S1200x1, S1200x1] S1200x4 1
  slices_S1200x85_o0_4_S1200x81 : S1200x85.Slices ![0, 4] S1200x81
  concatenates_S1200x4_S1200x81_S1200x85_d1 : Shape.Concatenates [S1200x4, S1200x81] S1200x85 1
  shapeCasts_S1200x85_S1x1200x85 : S1200x85.ShapeCasts S1x1200x85
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1200x85.size a ≤ S16x19200x85.size a
  hwx0_0 : ∀ i : grid0.Coords, EltTy.bits .f32 = 32 ∨ (Rect.block (s := S16x19200x85) S1x1200x85.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1200x85.size a ≤ S16x4800x85.size a
  hwx0_1 : ∀ i : grid0.Coords, EltTy.bits .f32 = 32 ∨ (Rect.block (s := S16x4800x85) S1x1200x85.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1200x85.size a ≤ S16x1200x85.size a
  hwx0_2 : ∀ i : grid0.Coords, EltTy.bits .f32 = 32 ∨ (Rect.block (s := S16x1200x85) S1x1200x85.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1200x85.size a ≤ S16x25200x85.size a
  hwx0_3 : ∀ i : grid0.Coords, EltTy.bits .f32 = 32 ∨ (Rect.block (s := S16x25200x85) S1x1200x85.size (cc0_transform_3 i) (hinb0_3 i)).WholeWords (EltTy.packing .f32)

variable [Facts₀]

abbrev win0_0 : Pipeline.Window sig grid0 :=
  Pipeline.Window.ofSpec (Memref.whole main_v0) S1x1200x85.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1200x85.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1200x85.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1200x85.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S16x3x80x80x85 : Shape := ⟨5, ![16, 3, 80, 80, 85]⟩
abbrev S16x3x40x40x85 : Shape := ⟨5, ![16, 3, 40, 40, 85]⟩
abbrev S16x3x20x20x85 : Shape := ⟨5, ![16, 3, 20, 20, 85]⟩
abbrev S1x4 : Shape := ⟨2, ![1, 4]⟩
abbrev S16x3x80x80x4 : Shape := ⟨5, ![16, 3, 80, 80, 4]⟩
abbrev S16x19200x4 : Shape := ⟨3, ![16, 19200, 4]⟩
abbrev S16x3x80x80x1 : Shape := ⟨5, ![16, 3, 80, 80, 1]⟩
abbrev S16x3x80x80 : Shape := ⟨4, ![16, 3, 80, 80]⟩
abbrev S16x19200 : Shape := ⟨2, ![16, 19200]⟩
abbrev S_ : Shape := ⟨0, ![]⟩
abbrev S16x3x80x80x80 : Shape := ⟨5, ![16, 3, 80, 80, 80]⟩
abbrev S16x19200x80 : Shape := ⟨3, ![16, 19200, 80]⟩
abbrev S16x19200x1 : Shape := ⟨3, ![16, 19200, 1]⟩
abbrev S16x3x40x40x4 : Shape := ⟨5, ![16, 3, 40, 40, 4]⟩
abbrev S16x4800x4 : Shape := ⟨3, ![16, 4800, 4]⟩
abbrev S16x3x40x40x1 : Shape := ⟨5, ![16, 3, 40, 40, 1]⟩
abbrev S16x3x40x40 : Shape := ⟨4, ![16, 3, 40, 40]⟩
abbrev S16x4800 : Shape := ⟨2, ![16, 4800]⟩
abbrev S16x3x40x40x80 : Shape := ⟨5, ![16, 3, 40, 40, 80]⟩
abbrev S16x4800x80 : Shape := ⟨3, ![16, 4800, 80]⟩
abbrev S16x4800x1 : Shape := ⟨3, ![16, 4800, 1]⟩
abbrev S16x3x20x20x4 : Shape := ⟨5, ![16, 3, 20, 20, 4]⟩
abbrev S16x1200x4 : Shape := ⟨3, ![16, 1200, 4]⟩
abbrev S16x3x20x20x1 : Shape := ⟨5, ![16, 3, 20, 20, 1]⟩
abbrev S16x3x20x20 : Shape := ⟨4, ![16, 3, 20, 20]⟩
abbrev S16x1200 : Shape := ⟨2, ![16, 1200]⟩
abbrev S16x3x20x20x80 : Shape := ⟨5, ![16, 3, 20, 20, 80]⟩
abbrev S16x1200x80 : Shape := ⟨3, ![16, 1200, 80]⟩
abbrev S16x1200x1 : Shape := ⟨3, ![16, 1200, 1]⟩
abbrev S16x25200x4 : Shape := ⟨3, ![16, 25200, 4]⟩
abbrev S16x25200 : Shape := ⟨2, ![16, 25200]⟩
abbrev S16x25200x80 : Shape := ⟨3, ![16, 25200, 80]⟩
abbrev S16x25200x1 : Shape := ⟨3, ![16, 25200, 1]⟩
abbrev S16x25200x85 : Shape := ⟨3, ![16, 25200, 85]⟩

abbrev nBuf : Space → Nat
  | .hbm => 213
  | .vmem => 0
  | .smem => 0
  | _ => 0

abbrev hbmTy0_0 (i : Nat) : BufTy := match i % 128 with
  | 0 => ⟨S16x3x80x80x85, .f32⟩
  | 1 => ⟨S16x3x40x40x85, .f32⟩
  | 2 => ⟨S16x3x20x20x85, .f32⟩
  | 3 => ⟨S1x4, .f32⟩
  | 4 => ⟨S16x3x80x80x4, .f32⟩
  | 5 => ⟨S16x19200x4, .f32⟩
  | 6 => ⟨S16x3x80x80x1, .f32⟩
  | 7 => ⟨S16x3x80x80, .f32⟩
  | 8 => ⟨S16x19200, .f32⟩
  | 9 => ⟨S16x19200, .f32⟩
  | 10 => ⟨S16x19200, .f32⟩
  | 11 => ⟨S_, .f32⟩
  | 12 => ⟨S16x19200, .f32⟩
  | 13 => ⟨S16x19200, .f32⟩
  | 14 => ⟨S_, .f32⟩
  | 15 => ⟨S16x19200, .f32⟩
  | 16 => ⟨S16x19200, .f32⟩
  | 17 => ⟨S16x3x80x80x80, .f32⟩
  | 18 => ⟨S16x19200x80, .f32⟩
  | 19 => ⟨S16x19200x80, .f32⟩
  | 20 => ⟨S16x19200x80, .f32⟩
  | 21 => ⟨S_, .f32⟩
  | 22 => ⟨S16x19200x80, .f32⟩
  | 23 => ⟨S16x19200x80, .f32⟩
  | 24 => ⟨S_, .f32⟩
  | 25 => ⟨S16x19200x80, .f32⟩
  | 26 => ⟨S16x19200x80, .f32⟩
  | 27 => ⟨S16x19200x1, .f32⟩
  | 28 => ⟨S16x19200, .f32⟩
  | 29 => ⟨S16x19200x1, .f32⟩
  | 30 => ⟨S16x19200, .f32⟩
  | 31 => ⟨S_, .f32⟩
  | 32 => ⟨S16x19200, .f32⟩
  | 33 => ⟨S16x19200, .f32⟩
  | 34 => ⟨S16x19200, .f32⟩
  | 35 => ⟨S_, .f32⟩
  | 36 => ⟨S16x19200, .f32⟩
  | 37 => ⟨S16x19200, .f32⟩
  | 38 => ⟨S16x19200x1, .f32⟩
  | 39 => ⟨S16x19200, .f32⟩
  | 40 => ⟨S16x19200x1, .f32⟩
  | 41 => ⟨S16x19200, .f32⟩
  | 42 => ⟨S_, .f32⟩
  | 43 => ⟨S16x19200, .f32⟩
  | 44 => ⟨S16x19200, .f32⟩
  | 45 => ⟨S16x19200, .f32⟩
  | 46 => ⟨S_, .f32⟩
  | 47 => ⟨S16x19200, .f32⟩
  | 48 => ⟨S16x19200, .f32⟩
  | 49 => ⟨S16x19200x1, .f32⟩
  | 50 => ⟨S16x19200, .f32⟩
  | 51 => ⟨S_, .f32⟩
  | 52 => ⟨S16x19200, .f32⟩
  | 53 => ⟨S16x19200, .f32⟩
  | 54 => ⟨S16x19200, .f32⟩
  | 55 => ⟨S_, .f32⟩
  | 56 => ⟨S16x19200, .f32⟩
  | 57 => ⟨S16x19200, .f32⟩
  | 58 => ⟨S16x19200x1, .f32⟩
  | 59 => ⟨S16x19200, .f32⟩
  | 60 => ⟨S_, .f32⟩
  | 61 => ⟨S16x19200, .f32⟩
  | 62 => ⟨S16x19200, .f32⟩
  | 63 => ⟨S16x19200, .f32⟩
  | 64 => ⟨S_, .f32⟩
  | 65 => ⟨S16x19200, .f32⟩
  | 66 => ⟨S16x19200, .f32⟩
  | 67 => ⟨S16x19200x1, .f32⟩
  | 68 => ⟨S16x19200x1, .f32⟩
  | 69 => ⟨S16x19200x1, .f32⟩
  | 70 => ⟨S16x19200x1, .f32⟩
  | 71 => ⟨S16x19200x4, .f32⟩
  | 72 => ⟨S16x3x40x40x4, .f32⟩
  | 73 => ⟨S16x4800x4, .f32⟩
  | 74 => ⟨S16x3x40x40x1, .f32⟩
  | 75 => ⟨S16x3x40x40, .f32⟩
  | 76 => ⟨S16x4800, .f32⟩
  | 77 => ⟨S16x4800, .f32⟩
  | 78 => ⟨S16x4800, .f32⟩
  | 79 => ⟨S_, .f32⟩
  | 80 => ⟨S16x4800, .f32⟩
  | 81 => ⟨S16x4800, .f32⟩
  | 82 => ⟨S_, .f32⟩
  | 83 => ⟨S16x4800, .f32⟩
  | 84 => ⟨S16x4800, .f32⟩
  | 85 => ⟨S16x3x40x40x80, .f32⟩
  | 86 => ⟨S16x4800x80, .f32⟩
  | 87 => ⟨S16x4800x80, .f32⟩
  | 88 => ⟨S16x4800x80, .f32⟩
  | 89 => ⟨S_, .f32⟩
  | 90 => ⟨S16x4800x80, .f32⟩
  | 91 => ⟨S16x4800x80, .f32⟩
  | 92 => ⟨S_, .f32⟩
  | 93 => ⟨S16x4800x80, .f32⟩
  | 94 => ⟨S16x4800x80, .f32⟩
  | 95 => ⟨S16x4800x1, .f32⟩
  | 96 => ⟨S16x4800, .f32⟩
  | 97 => ⟨S16x4800x1, .f32⟩
  | 98 => ⟨S16x4800, .f32⟩
  | 99 => ⟨S_, .f32⟩
  | 100 => ⟨S16x4800, .f32⟩
  | 101 => ⟨S16x4800, .f32⟩
  | 102 => ⟨S16x4800, .f32⟩
  | 103 => ⟨S_, .f32⟩
  | 104 => ⟨S16x4800, .f32⟩
  | 105 => ⟨S16x4800, .f32⟩
  | 106 => ⟨S16x4800x1, .f32⟩
  | 107 => ⟨S16x4800, .f32⟩
  | 108 => ⟨S16x4800x1, .f32⟩
  | 109 => ⟨S16x4800, .f32⟩
  | 110 => ⟨S_, .f32⟩
  | 111 => ⟨S16x4800, .f32⟩
  | 112 => ⟨S16x4800, .f32⟩
  | 113 => ⟨S16x4800, .f32⟩
  | 114 => ⟨S_, .f32⟩
  | 115 => ⟨S16x4800, .f32⟩
  | 116 => ⟨S16x4800, .f32⟩
  | 117 => ⟨S16x4800x1, .f32⟩
  | 118 => ⟨S16x4800, .f32⟩
  | 119 => ⟨S_, .f32⟩
  | 120 => ⟨S16x4800, .f32⟩
  | 121 => ⟨S16x4800, .f32⟩
  | 122 => ⟨S16x4800, .f32⟩
  | 123 => ⟨S_, .f32⟩
  | 124 => ⟨S16x4800, .f32⟩
  | 125 => ⟨S16x4800, .f32⟩
  | 126 => ⟨S16x4800x1, .f32⟩
  | 127 => ⟨S16x4800, .f32⟩
  | _ => ⟨S16x3x80x80x85, .f32⟩

abbrev hbmTy0_1 (i : Nat) : BufTy := match i % 128 with
  | 0 => ⟨S_, .f32⟩
  | 1 => ⟨S16x4800, .f32⟩
  | 2 => ⟨S16x4800, .f32⟩
  | 3 => ⟨S16x4800, .f32⟩
  | 4 => ⟨S_, .f32⟩
  | 5 => ⟨S16x4800, .f32⟩
  | 6 => ⟨S16x4800, .f32⟩
  | 7 => ⟨S16x4800x1, .f32⟩
  | 8 => ⟨S16x4800x1, .f32⟩
  | 9 => ⟨S16x4800x1, .f32⟩
  | 10 => ⟨S16x4800x1, .f32⟩
  | 11 => ⟨S16x4800x4, .f32⟩
  | 12 => ⟨S16x3x20x20x4, .f32⟩
  | 13 => ⟨S16x1200x4, .f32⟩
  | 14 => ⟨S16x3x20x20x1, .f32⟩
  | 15 => ⟨S16x3x20x20, .f32⟩
  | 16 => ⟨S16x1200, .f32⟩
  | 17 => ⟨S16x1200, .f32⟩
  | 18 => ⟨S16x1200, .f32⟩
  | 19 => ⟨S_, .f32⟩
  | 20 => ⟨S16x1200, .f32⟩
  | 21 => ⟨S16x1200, .f32⟩
  | 22 => ⟨S_, .f32⟩
  | 23 => ⟨S16x1200, .f32⟩
  | 24 => ⟨S16x1200, .f32⟩
  | 25 => ⟨S16x3x20x20x80, .f32⟩
  | 26 => ⟨S16x1200x80, .f32⟩
  | 27 => ⟨S16x1200x80, .f32⟩
  | 28 => ⟨S16x1200x80, .f32⟩
  | 29 => ⟨S_, .f32⟩
  | 30 => ⟨S16x1200x80, .f32⟩
  | 31 => ⟨S16x1200x80, .f32⟩
  | 32 => ⟨S_, .f32⟩
  | 33 => ⟨S16x1200x80, .f32⟩
  | 34 => ⟨S16x1200x80, .f32⟩
  | 35 => ⟨S16x1200x1, .f32⟩
  | 36 => ⟨S16x1200, .f32⟩
  | 37 => ⟨S16x1200x1, .f32⟩
  | 38 => ⟨S16x1200, .f32⟩
  | 39 => ⟨S_, .f32⟩
  | 40 => ⟨S16x1200, .f32⟩
  | 41 => ⟨S16x1200, .f32⟩
  | 42 => ⟨S16x1200, .f32⟩
  | 43 => ⟨S_, .f32⟩
  | 44 => ⟨S16x1200, .f32⟩
  | 45 => ⟨S16x1200, .f32⟩
  | 46 => ⟨S16x1200x1, .f32⟩
  | 47 => ⟨S16x1200, .f32⟩
  | 48 => ⟨S16x1200x1, .f32⟩
  | 49 => ⟨S16x1200, .f32⟩
  | 50 => ⟨S_, .f32⟩
  | 51 => ⟨S16x1200, .f32⟩
  | 52 => ⟨S16x1200, .f32⟩
  | 53 => ⟨S16x1200, .f32⟩
  | 54 => ⟨S_, .f32⟩
  | 55 => ⟨S16x1200, .f32⟩
  | 56 => ⟨S16x1200, .f32⟩
  | 57 => ⟨S16x1200x1, .f32⟩
  | 58 => ⟨S16x1200, .f32⟩
  | 59 => ⟨S_, .f32⟩
  | 60 => ⟨S16x1200, .f32⟩
  | 61 => ⟨S16x1200, .f32⟩
  | 62 => ⟨S16x1200, .f32⟩
  | 63 => ⟨S_, .f32⟩
  | 64 => ⟨S16x1200, .f32⟩
  | 65 => ⟨S16x1200, .f32⟩
  | 66 => ⟨S16x1200x1, .f32⟩
  | 67 => ⟨S16x1200, .f32⟩
  | 68 => ⟨S_, .f32⟩
  | 69 => ⟨S16x1200, .f32⟩
  | 70 => ⟨S16x1200, .f32⟩
  | 71 => ⟨S16x1200, .f32⟩
  | 72 => ⟨S_, .f32⟩
  | 73 => ⟨S16x1200, .f32⟩
  | 74 => ⟨S16x1200, .f32⟩
  | 75 => ⟨S16x1200x1, .f32⟩
  | 76 => ⟨S16x1200x1, .f32⟩
  | 77 => ⟨S16x1200x1, .f32⟩
  | 78 => ⟨S16x1200x1, .f32⟩
  | 79 => ⟨S16x1200x4, .f32⟩
  | 80 => ⟨S16x25200x4, .f32⟩
  | 81 => ⟨S16x25200, .f32⟩
  | 82 => ⟨S16x25200x80, .f32⟩
  | 83 => ⟨S16x25200x1, .f32⟩
  | 84 => ⟨S16x25200x85, .f32⟩
  | _ => ⟨S16x3x80x80x85, .f32⟩

abbrev hbmTy (i : Nat) : BufTy := match i / 128 with
  | 0 => hbmTy0_0 i
  | 1 => hbmTy0_1 i
  | _ => ⟨S16x3x80x80x85, .f32⟩

abbrev bufTy : (tb : Table) → Fin (tcTables nBuf tb) → BufTy
  | .hbm, ⟨i, _⟩ => hbmTy i
  | _, _ => ⟨S16x3x80x80x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_15 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_16 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_17 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_18 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_19 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_20 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_21 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_22 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_23 : Ref sig .tc := ⟨.hbm, 147, rfl⟩
abbrev main_v119 : Ref sig .tc := ⟨.hbm, 148, rfl⟩
abbrev main_v120 : Ref sig .tc := ⟨.hbm, 149, rfl⟩
abbrev main_cst_24 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_25 : Ref sig .tc := ⟨.hbm, 157, rfl⟩
abbrev main_v127 : Ref sig .tc := ⟨.hbm, 158, rfl⟩
abbrev main_v128 : Ref sig .tc := ⟨.hbm, 159, rfl⟩
abbrev main_cst_26 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_27 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_28 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_29 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_30 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_cst_31 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_cst_32 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_33 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_34 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩

abbrev nD : Nat := 1
abbrev τ : Topo := Topo.v7x

variable {F : FTy → Type} [FloatOps F]

class Facts₀ : Prop where
  slices_S16x3x80x80x85_S16x3x80x80x4_0_0_0_0_0 : S16x3x80x80x85.Slices ![0, 0, 0, 0, 0] S16x3x80x80x4
  shapeCasts_S16x3x80x80x4_S16x19200x4 : S16x3x80x80x4.ShapeCasts S16x19200x4
  slices_S16x3x80x80x85_S16x3x80x80x1_0_0_0_0_4 : S16x3x80x80x85.Slices ![0, 0, 0, 0, 4] S16x3x80x80x1
  shapeCasts_S16x3x80x80x1_S16x3x80x80 : S16x3x80x80x1.ShapeCasts S16x3x80x80
  shapeCasts_S16x3x80x80_S16x19200 : S16x3x80x80.ShapeCasts S16x19200
  bcast_S_S16x19200 : S_.BroadcastsInDim S16x19200 (![] : Fin 0 → Fin S16x19200.rank)
  slices_S16x3x80x80x85_S16x3x80x80x80_0_0_0_0_5 : S16x3x80x80x85.Slices ![0, 0, 0, 0, 5] S16x3x80x80x80
  shapeCasts_S16x3x80x80x80_S16x19200x80 : S16x3x80x80x80.ShapeCasts S16x19200x80
  bcast_S_S16x19200x80 : S_.BroadcastsInDim S16x19200x80 (![] : Fin 0 → Fin S16x19200x80.rank)
  slices_S16x19200x4_S16x19200x1_0_0_0 : S16x19200x4.Slices ![0, 0, 0] S16x19200x1
  shapeCasts_S16x19200x1_S16x19200 : S16x19200x1.ShapeCasts S16x19200
  slices_S16x19200x4_S16x19200x1_0_0_2 : S16x19200x4.Slices ![0, 0, 2] S16x19200x1
  slices_S16x19200x4_S16x19200x1_0_0_1 : S16x19200x4.Slices ![0, 0, 1] S16x19200x1
  slices_S16x19200x4_S16x19200x1_0_0_3 : S16x19200x4.Slices ![0, 0, 3] S16x19200x1
  bcast_S16x19200_S16x19200x1_0_1 : S16x19200.BroadcastsInDim S16x19200x1 (![0, 1] : Fin 2 → Fin S16x19200x1.rank)
  concatenates_S16x19200x1_S16x19200x1_S16x19200x1_S16x19200x1_S16x19200x4_d2 : Shape.Concatenates [S16x19200x1, S16x19200x1, S16x19200x1, S16x19200x1] S16x19200x4 2
  slices_S16x3x40x40x85_S16x3x40x40x4_0_0_0_0_0 : S16x3x40x40x85.Slices ![0, 0, 0, 0, 0] S16x3x40x40x4
  shapeCasts_S16x3x40x40x4_S16x4800x4 : S16x3x40x40x4.ShapeCasts S16x4800x4
  slices_S16x3x40x40x85_S16x3x40x40x1_0_0_0_0_4 : S16x3x40x40x85.Slices ![0, 0, 0, 0, 4] S16x3x40x40x1
  shapeCasts_S16x3x40x40x1_S16x3x40x40 : S16x3x40x40x1.ShapeCasts S16x3x40x40
  shapeCasts_S16x3x40x40_S16x4800 : S16x3x40x40.ShapeCasts S16x4800
  bcast_S_S16x4800 : S_.BroadcastsInDim S16x4800 (![] : Fin 0 → Fin S16x4800.rank)
  slices_S16x3x40x40x85_S16x3x40x40x80_0_0_0_0_5 : S16x3x40x40x85.Slices ![0, 0, 0, 0, 5] S16x3x40x40x80
  shapeCasts_S16x3x40x40x80_S16x4800x80 : S16x3x40x40x80.ShapeCasts S16x4800x80
  bcast_S_S16x4800x80 : S_.BroadcastsInDim S16x4800x80 (![] : Fin 0 → Fin S16x4800x80.rank)
  slices_S16x4800x4_S16x4800x1_0_0_0 : S16x4800x4.Slices ![0, 0, 0] S16x4800x1
  shapeCasts_S16x4800x1_S16x4800 : S16x4800x1.ShapeCasts S16x4800
  slices_S16x4800x4_S16x4800x1_0_0_2 : S16x4800x4.Slices ![0, 0, 2] S16x4800x1
  slices_S16x4800x4_S16x4800x1_0_0_1 : S16x4800x4.Slices ![0, 0, 1] S16x4800x1
  slices_S16x4800x4_S16x4800x1_0_0_3 : S16x4800x4.Slices ![0, 0, 3] S16x4800x1
  bcast_S16x4800_S16x4800x1_0_1 : S16x4800.BroadcastsInDim S16x4800x1 (![0, 1] : Fin 2 → Fin S16x4800x1.rank)
  concatenates_S16x4800x1_S16x4800x1_S16x4800x1_S16x4800x1_S16x4800x4_d2 : Shape.Concatenates [S16x4800x1, S16x4800x1, S16x4800x1, S16x4800x1] S16x4800x4 2
  slices_S16x3x20x20x85_S16x3x20x20x4_0_0_0_0_0 : S16x3x20x20x85.Slices ![0, 0, 0, 0, 0] S16x3x20x20x4
  shapeCasts_S16x3x20x20x4_S16x1200x4 : S16x3x20x20x4.ShapeCasts S16x1200x4
  slices_S16x3x20x20x85_S16x3x20x20x1_0_0_0_0_4 : S16x3x20x20x85.Slices ![0, 0, 0, 0, 4] S16x3x20x20x1
  shapeCasts_S16x3x20x20x1_S16x3x20x20 : S16x3x20x20x1.ShapeCasts S16x3x20x20
  shapeCasts_S16x3x20x20_S16x1200 : S16x3x20x20.ShapeCasts S16x1200
  bcast_S_S16x1200 : S_.BroadcastsInDim S16x1200 (![] : Fin 0 → Fin S16x1200.rank)
  slices_S16x3x20x20x85_S16x3x20x20x80_0_0_0_0_5 : S16x3x20x20x85.Slices ![0, 0, 0, 0, 5] S16x3x20x20x80
  shapeCasts_S16x3x20x20x80_S16x1200x80 : S16x3x20x20x80.ShapeCasts S16x1200x80
  bcast_S_S16x1200x80 : S_.BroadcastsInDim S16x1200x80 (![] : Fin 0 → Fin S16x1200x80.rank)
  slices_S16x1200x4_S16x1200x1_0_0_0 : S16x1200x4.Slices ![0, 0, 0] S16x1200x1
  shapeCasts_S16x1200x1_S16x1200 : S16x1200x1.ShapeCasts S16x1200
  slices_S16x1200x4_S16x1200x1_0_0_2 : S16x1200x4.Slices ![0, 0, 2] S16x1200x1
  slices_S16x1200x4_S16x1200x1_0_0_1 : S16x1200x4.Slices ![0, 0, 1] S16x1200x1
  slices_S16x1200x4_S16x1200x1_0_0_3 : S16x1200x4.Slices ![0, 0, 3] S16x1200x1
  bcast_S16x1200_S16x1200x1_0_1 : S16x1200.BroadcastsInDim S16x1200x1 (![0, 1] : Fin 2 → Fin S16x1200x1.rank)
  concatenates_S16x1200x1_S16x1200x1_S16x1200x1_S16x1200x1_S16x1200x4_d2 : Shape.Concatenates [S16x1200x1, S16x1200x1, S16x1200x1, S16x1200x1] S16x1200x4 2
  concatenates_S16x19200x4_S16x4800x4_S16x1200x4_S16x25200x4_d1 : Shape.Concatenates [S16x19200x4, S16x4800x4, S16x1200x4] S16x25200x4 1
  concatenates_S16x19200_S16x4800_S16x1200_S16x25200_d1 : Shape.Concatenates [S16x19200, S16x4800, S16x1200] S16x25200 1
  concatenates_S16x19200x80_S16x4800x80_S16x1200x80_S16x25200x80_d1 : Shape.Concatenates [S16x19200x80, S16x4800x80, S16x1200x80] S16x25200x80 1
  bcast_S16x25200_S16x25200x1_0_1 : S16x25200.BroadcastsInDim S16x25200x1 (![0, 1] : Fin 2 → Fin S16x25200x1.rank)
  concatenates_S16x25200x4_S16x25200x1_S16x25200x80_S16x25200x85_d2 : Shape.Concatenates [S16x25200x4, S16x25200x1, S16x25200x80] S16x25200x85 2

variable [Facts₀]

class Facts : Prop extends Facts₀ where

variable [Facts]
-- ==== Proof.BodyBits.lean ====
/-
  The body of the fused decode kernel, run at every grid point, and the frame of the program that launches it.

  The grid is 16 images by 21 row tiles of 1200 rows. Tile j of an image belongs to the first feature map when
  j < 16, to the second when 16 ≤ j < 20, to the third when j = 20; the body branches three times on j and exactly one
  branch runs (`branch`). The branch that runs loads its map's block (1200 rows of 85 channels), loads the output
  buffer (a value nobody reads), and stores one dense block: the decoded rows, a pure function of the loaded block
  (`k0_pay1`, `k0_pay2`, `k0_pay3`: one per map, differing in the map's side). So after the body at point t the
  output's staging buffer holds that function of the input block the running branch names (`decoded`), the three
  input buffers are as they were found, and since the output block is written back at every point the obligation
  asks exactly this at every point.
-/
import proofs.«106048_j74655121539887_2_alg».proof.Proof.Gen.Kernel.Frame
import proofs.«106048_j74655121539887_2_alg».proof.Proof.Gen.Kernel.Skeleton
import Idealize.ShloMosaic.Lib.Pipeline.Frame
import Idealize.ShloMosaic.Lib.Pipeline.Value
import Idealize.ShloMosaic.Lib.Exec.Geometry

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch runs -/

/-- For a tile number below 21 exactly one of the three conditions holds: `j < 16`, `16 ≤ j < 20`, `20 ≤ j`. -/
theorem branch_of_tile : ∀ n : Fin 21,
    (Scalar.cmpi .ne (Scalar.extui (Scalar.cmpi .slt (BitVec.ofNat 32 n.val) 16#32) : BitVec 32) 0#32 = 1#1
      ∧ ¬Scalar.cmpi .ne (Scalar.extui (Scalar.andi (Scalar.cmpi .sge (BitVec.ofNat 32 n.val) 16#32) (Scalar.cmpi .slt (BitVec.ofNat 32 n.val) 20#32)) : BitVec 32) 0#32 = 1#1
      ∧ ¬Scalar.cmpi .ne (Scalar.extui (Scalar.cmpi .sge (BitVec.ofNat 32 n.val) 20#32) : BitVec 32) 0#32 = 1#1)
    ∨ (¬Scalar.cmpi .ne (Scalar.extui (Scalar.cmpi .slt (BitVec.ofNat 32 n.val) 16#32) : BitVec 32) 0#32 = 1#1
      ∧ Scalar.cmpi .ne (Scalar.extui (Scalar.andi (Scalar.cmpi .sge (BitVec.ofNat 32 n.val) 16#32) (Scalar.cmpi .slt (BitVec.ofNat 32 n.val) 20#32)) : BitVec 32) 0#32 = 1#1
      ∧ ¬Scalar.cmpi .ne (Scalar.extui (Scalar.cmpi .sge (BitVec.ofNat 32 n.val) 20#32) : BitVec 32) 0#32 = 1#1)
    ∨ (¬Scalar.cmpi .ne (Scalar.extui (Scalar.cmpi .slt (BitVec.ofNat 32 n.val) 16#32) : BitVec 32) 0#32 = 1#1
      ∧ ¬Scalar.cmpi .ne (Scalar.extui (Scalar.andi (Scalar.cmpi .sge (BitVec.ofNat 32 n.val) 16#32) (Scalar.cmpi .slt (BitVec.ofNat 32 n.val) 20#32)) : BitVec 32) 0#32 = 1#1
      ∧ Scalar.cmpi .ne (Scalar.extui (Scalar.cmpi .sge (BitVec.ofNat 32 n.val) 20#32) : BitVec 32) 0#32 = 1#1) := by
  decide +kernel

/-- At every grid point exactly one of the body's three branches runs. -/
theorem branch (i : grid0.Coords) :
    (k0_cond1 i = 1#1 ∧ ¬k0_cond2 i = 1#1 ∧ ¬k0_cond3 i = 1#1)
    ∨ (¬k0_cond1 i = 1#1 ∧ k0_cond2 i = 1#1 ∧ ¬k0_cond3 i = 1#1)
    ∨ (¬k0_cond1 i = 1#1 ∧ ¬k0_cond2 i = 1#1 ∧ k0_cond3 i = 1#1) :=
  branch_of_tile (i 1)

/-- The offsets of the one rectangle the body loads and stores through are zero: it is the whole block. -/
theorem hz : (![0, 0, 0] : Fin S1x1200x85.rank → Nat) = fun _ => 0 := by
  funext a; match a with | ⟨0, _⟩ => rfl | ⟨1, _⟩ => rfl | ⟨2, _⟩ => rfl

/-! ## The body's triple, one per branch -/

set_option maxHeartbeats 4000000 in
/-- The body at a tile of the FIRST map, on whole staging memrefs — the three inputs' at read contents, the output's at anything —, runs to the continuation holding the inputs as they were and the output at the first map's decoded block of its input: the two other branches are skipped, the one store covers the buffer, and the load through the whole block reads the contents. -/
theorem sound_kernel_A (c : Dev nD) (E : Set ℕ) (i : grid0.Coords)
    (arg2 : Memref sig .tc .vmem S1x1200x85 .f32) (harg2 : arg2.IsWhole) (arg3 : Memref sig .tc .vmem S1x1200x85 .f32) (harg3 : arg3.IsWhole)
    (arg4 : Memref sig .tc .vmem S1x1200x85 .f32) (harg4 : arg4.IsWhole) (arg5 : Memref sig .tc .vmem S1x1200x85 .f32) (harg5 : arg5.IsWhole)
    (hc1 : k0_cond1 i = 1#1) (hc2 : ¬k0_cond2 i = 1#1) (hc3 : ¬k0_cond3 i = 1#1)
    (x0 x1 x2 : Vec F S1x1200x85 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 x0)) -∗ K ⟨⟩))
      ⊢ wp frame (wpE (defs₀ (F := F)) Variants.none c none) E (cc0__decode_kernel i arg2 harg2 arg3 harg3 arg4 harg4 arg5 harg5) K := by
  simp only [cc0__decode_kernel_eq_skeleton]; unfold cc0__decode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz Facts₀.inb_S1x1200x85_S1x1200x85_0_0_0 y⟩),
    View.canon_unit_zero hz, View.readAt_eq_ld, View.ld_unit_zero hz]

set_option maxHeartbeats 4000000 in
/-- The same at a tile of the SECOND map: the output ends at the second map's decoded block of the second input. -/
theorem sound_kernel_B (c : Dev nD) (E : Set ℕ) (i : grid0.Coords)
    (arg2 : Memref sig .tc .vmem S1x1200x85 .f32) (harg2 : arg2.IsWhole) (arg3 : Memref sig .tc .vmem S1x1200x85 .f32) (harg3 : arg3.IsWhole)
    (arg4 : Memref sig .tc .vmem S1x1200x85 .f32) (harg4 : arg4.IsWhole) (arg5 : Memref sig .tc .vmem S1x1200x85 .f32) (harg5 : arg5.IsWhole)
    (hc1 : ¬k0_cond1 i = 1#1) (hc2 : k0_cond2 i = 1#1) (hc3 : ¬k0_cond3 i = 1#1)
    (x0 x1 x2 : Vec F S1x1200x85 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x1)) -∗ K ⟨⟩))
      ⊢ wp frame (wpE (defs₀ (F := F)) Variants.none c none) E (cc0__decode_kernel i arg2 harg2 arg3 harg3 arg4 harg4 arg5 harg5) K := by
  simp only [cc0__decode_kernel_eq_skeleton]; unfold cc0__decode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz Facts₀.inb_S1x1200x85_S1x1200x85_0_0_0 y⟩),
    View.canon_unit_zero hz, View.readAt_eq_ld, View.ld_unit_zero hz]

set_option maxHeartbeats 4000000 in
/-- The same at a tile of the THIRD map: the output ends at the third map's decoded block of the third input. -/
theorem sound_kernel_C (c : Dev nD) (E : Set ℕ) (i : grid0.Coords)
    (arg2 : Memref sig .tc .vmem S1x1200x85 .f32) (harg2 : arg2.IsWhole) (arg3 : Memref sig .tc .vmem S1x1200x85 .f32) (harg3 : arg3.IsWhole)
    (arg4 : Memref sig .tc .vmem S1x1200x85 .f32) (harg4 : arg4.IsWhole) (arg5 : Memref sig .tc .vmem S1x1200x85 .f32) (harg5 : arg5.IsWhole)
    (hc1 : ¬k0_cond1 i = 1#1) (hc2 : ¬k0_cond2 i = 1#1) (hc3 : k0_cond3 i = 1#1)
    (x0 x1 x2 : Vec F S1x1200x85 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x2)) -∗ K ⟨⟩))
      ⊢ wp frame (wpE (defs₀ (F := F)) Variants.none c none) E (cc0__decode_kernel i arg2 harg2 arg3 harg3 arg4 harg4 arg5 harg5) K := by
  simp only [cc0__decode_kernel_eq_skeleton]; unfold cc0__decode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz Facts₀.inb_S1x1200x85_S1x1200x85_0_0_0 y⟩),
    View.canon_unit_zero hz, View.readAt_eq_ld, View.ld_unit_zero hz]

/-! ## What the output's buffer holds after the body -/

/-- The block the body leaves in the output's buffer at point `t`: the decoded rows of the block of the map the
    point's tile belongs to. -/
def decoded (c : Dev nD) (t : Fin cfg0.N) : Vec F S1x1200x85 .f32 :=
  if k0_cond1 (grid0.coords t) = 1#1 then k0_pay1 (iblk m c 0 t)
  else if k0_cond2 (grid0.coords t) = 1#1 then k0_pay2 (iblk m c 1 t)
  else k0_pay3 (iblk m c 2 t)

theorem decoded_A (c : Dev nD) (t : Fin cfg0.N) (h1 : k0_cond1 (grid0.coords t) = 1#1) :
    decoded m c t = k0_pay1 (iblk m c 0 t) := by unfold decoded; rw [if_pos h1]
theorem decoded_B (c : Dev nD) (t : Fin cfg0.N) (h1 : ¬k0_cond1 (grid0.coords t) = 1#1) (h2 : k0_cond2 (grid0.coords t) = 1#1) :
    decoded m c t = k0_pay2 (iblk m c 1 t) := by unfold decoded; rw [if_neg h1, if_pos h2]
theorem decoded_C (c : Dev nD) (t : Fin cfg0.N) (h1 : ¬k0_cond1 (grid0.coords t) = 1#1) (h2 : ¬k0_cond2 (grid0.coords t) = 1#1) :
    decoded m c t = k0_pay3 (iblk m c 2 t) := by unfold decoded; rw [if_neg h1, if_neg h2]

/-! ## The pipeline's proof data -/

/-- The proof data of the one pipeline on core `c`: the arrays as the region finds them; after the body at point
    `t` each input's buffer at its block and the output's at the decoded block; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => decoded m c t
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = decoded m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: each input's memref holds its block, so the triple of the branch that runs applies
    (`branch`); the invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  rcases branch (grid0.coords t) with ⟨h1, h2, h3⟩ | ⟨h1, h2, h3⟩ | ⟨h1, h2, h3⟩
  · rw [decoded_A m c t h1]
    iapply (sound_kernel_A c Set.univ (grid0.coords t) _ _ _ _ _ _ _ _ h1 h2 h3 (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [decoded_B m c t h1 h2]
    iapply (sound_kernel_B c Set.univ (grid0.coords t) _ _ _ _ _ _ _ _ h1 h2 h3 (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [decoded_C m c t h1 h2]
    iapply (sound_kernel_C c Set.univ (grid0.coords t) _ _ _ _ _ _ _ _ h1 h2 h3 (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The output window is live at every point: the branch that runs stores into its buffer. -/
theorem live3 (t : Fin cfg0.N) : idle0 3 (grid0.coords t) = false := by
  show (!(k0_cond1 (grid0.coords t) == 1#1) && !(k0_cond2 (grid0.coords t) == 1#1) && !(k0_cond3 (grid0.coords t) == 1#1)) = false
  rcases branch (grid0.coords t) with ⟨h1, h2, h3⟩ | ⟨h1, h2, h3⟩ | ⟨h1, h2, h3⟩
  · rw [h1]; rfl
  · rw [h2]; simp
  · rw [h3]; simp

/-- The library's body obligation, at every point. -/
theorem body_obligation (c : Dev nD) : BodyObligation (dats (F := F) m 0 c) (defs₀ (F := F)) Variants.none () Set.univ := fun t => by
  rw [bigSep_W0, bigSep_W0, show cfg0.idle 3 (cfg0.grid.coords t) = false from live3 t]
  exact sound_body m c t

/-! ## The run and the frame -/

set_option backward.isDefEq.respectTransparency.types false in
/-- At the compiled mesh, for any float values, from any memory with zero counters: every weakly fair execution of
    @main on the TensorCores terminates, and every final state has every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- THE FRAME: the program runs, nothing faults, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyIdeal.lean ====
/-
  The body of the fused decode kernel, run at every grid point, and the frame of the program that launches it.

  The grid is 16 images by 21 row tiles of 1200 rows. Tile j of an image belongs to the first feature map when
  j < 16, to the second when 16 ≤ j < 20, to the third when j = 20; the body branches three times on j and exactly one
  branch runs (`branch`). The branch that runs loads its map's block (1200 rows of 85 channels), loads the output
  buffer (a value nobody reads), and stores one dense block: the decoded rows, a pure function of the loaded block
  (`k0_pay1`, `k0_pay2`, `k0_pay3`: one per map, differing in the map's side). So after the body at point t the
  output's staging buffer holds that function of the input block the running branch names (`decoded`), the three
  input buffers are as they were found, and since the output block is written back at every point the obligation
  asks exactly this at every point.
-/
import proofs.«106048_j74655121539887_2_alg».proof.Proof.Gen.KernelIdeal.Frame
import proofs.«106048_j74655121539887_2_alg».proof.Proof.Gen.KernelIdeal.Skeleton
import Idealize.ShloMosaic.Lib.Pipeline.Frame
import Idealize.ShloMosaic.Lib.Pipeline.Value
import Idealize.ShloMosaic.Lib.Exec.Geometry

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch runs -/

/-- For a tile number below 21 exactly one of the three conditions holds: `j < 16`, `16 ≤ j < 20`, `20 ≤ j`. -/
theorem branch_of_tile : ∀ n : Fin 21,
    (Scalar.cmpi .ne (Scalar.extui (Scalar.cmpi .slt (BitVec.ofNat 32 n.val) 16#32) : BitVec 32) 0#32 = 1#1
      ∧ ¬Scalar.cmpi .ne (Scalar.extui (Scalar.andi (Scalar.cmpi .sge (BitVec.ofNat 32 n.val) 16#32) (Scalar.cmpi .slt (BitVec.ofNat 32 n.val) 20#32)) : BitVec 32) 0#32 = 1#1
      ∧ ¬Scalar.cmpi .ne (Scalar.extui (Scalar.cmpi .sge (BitVec.ofNat 32 n.val) 20#32) : BitVec 32) 0#32 = 1#1)
    ∨ (¬Scalar.cmpi .ne (Scalar.extui (Scalar.cmpi .slt (BitVec.ofNat 32 n.val) 16#32) : BitVec 32) 0#32 = 1#1
      ∧ Scalar.cmpi .ne (Scalar.extui (Scalar.andi (Scalar.cmpi .sge (BitVec.ofNat 32 n.val) 16#32) (Scalar.cmpi .slt (BitVec.ofNat 32 n.val) 20#32)) : BitVec 32) 0#32 = 1#1
      ∧ ¬Scalar.cmpi .ne (Scalar.extui (Scalar.cmpi .sge (BitVec.ofNat 32 n.val) 20#32) : BitVec 32) 0#32 = 1#1)
    ∨ (¬Scalar.cmpi .ne (Scalar.extui (Scalar.cmpi .slt (BitVec.ofNat 32 n.val) 16#32) : BitVec 32) 0#32 = 1#1
      ∧ ¬Scalar.cmpi .ne (Scalar.extui (Scalar.andi (Scalar.cmpi .sge (BitVec.ofNat 32 n.val) 16#32) (Scalar.cmpi .slt (BitVec.ofNat 32 n.val) 20#32)) : BitVec 32) 0#32 = 1#1
      ∧ Scalar.cmpi .ne (Scalar.extui (Scalar.cmpi .sge (BitVec.ofNat 32 n.val) 20#32) : BitVec 32) 0#32 = 1#1) := by
  decide +kernel

/-- At every grid point exactly one of the body's three branches runs. -/
theorem branch (i : grid0.Coords) :
    (k0_cond1 i = 1#1 ∧ ¬k0_cond2 i = 1#1 ∧ ¬k0_cond3 i = 1#1)
    ∨ (¬k0_cond1 i = 1#1 ∧ k0_cond2 i = 1#1 ∧ ¬k0_cond3 i = 1#1)
    ∨ (¬k0_cond1 i = 1#1 ∧ ¬k0_cond2 i = 1#1 ∧ k0_cond3 i = 1#1) :=
  branch_of_tile (i 1)

/-- The offsets of the one rectangle the body loads and stores through are zero: it is the whole block. -/
theorem hz : (![0, 0, 0] : Fin S1x1200x85.rank → Nat) = fun _ => 0 := by
  funext a; match a with | ⟨0, _⟩ => rfl | ⟨1, _⟩ => rfl | ⟨2, _⟩ => rfl

/-! ## The body's triple, one per branch -/

set_option maxHeartbeats 4000000 in
/-- The body at a tile of the FIRST map, on whole staging memrefs — the three inputs' at read contents, the output's at anything —, runs to the continuation holding the inputs as they were and the output at the first map's decoded block of its input: the two other branches are skipped, the one store covers the buffer, and the load through the whole block reads the contents. -/
theorem sound_kernel_A (c : Dev nD) (E : Set ℕ) (i : grid0.Coords)
    (arg2 : Memref sig .tc .vmem S1x1200x85 .f32) (harg2 : arg2.IsWhole) (arg3 : Memref sig .tc .vmem S1x1200x85 .f32) (harg3 : arg3.IsWhole)
    (arg4 : Memref sig .tc .vmem S1x1200x85 .f32) (harg4 : arg4.IsWhole) (arg5 : Memref sig .tc .vmem S1x1200x85 .f32) (harg5 : arg5.IsWhole)
    (hc1 : k0_cond1 i = 1#1) (hc2 : ¬k0_cond2 i = 1#1) (hc3 : ¬k0_cond3 i = 1#1)
    (x0 x1 x2 : Vec F S1x1200x85 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 x0)) -∗ K ⟨⟩))
      ⊢ wp frame (wpE (defs₀ (F := F)) Variants.none c none) E (cc0__decode_kernel i arg2 harg2 arg3 harg3 arg4 harg4 arg5 harg5) K := by
  simp only [cc0__decode_kernel_eq_skeleton]; unfold cc0__decode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz Facts₀.inb_S1x1200x85_S1x1200x85_0_0_0 y⟩),
    View.canon_unit_zero hz, View.readAt_eq_ld, View.ld_unit_zero hz]

set_option maxHeartbeats 4000000 in
/-- The same at a tile of the SECOND map: the output ends at the second map's decoded block of the second input. -/
theorem sound_kernel_B (c : Dev nD) (E : Set ℕ) (i : grid0.Coords)
    (arg2 : Memref sig .tc .vmem S1x1200x85 .f32) (harg2 : arg2.IsWhole) (arg3 : Memref sig .tc .vmem S1x1200x85 .f32) (harg3 : arg3.IsWhole)
    (arg4 : Memref sig .tc .vmem S1x1200x85 .f32) (harg4 : arg4.IsWhole) (arg5 : Memref sig .tc .vmem S1x1200x85 .f32) (harg5 : arg5.IsWhole)
    (hc1 : ¬k0_cond1 i = 1#1) (hc2 : k0_cond2 i = 1#1) (hc3 : ¬k0_cond3 i = 1#1)
    (x0 x1 x2 : Vec F S1x1200x85 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x1)) -∗ K ⟨⟩))
      ⊢ wp frame (wpE (defs₀ (F := F)) Variants.none c none) E (cc0__decode_kernel i arg2 harg2 arg3 harg3 arg4 harg4 arg5 harg5) K := by
  simp only [cc0__decode_kernel_eq_skeleton]; unfold cc0__decode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz Facts₀.inb_S1x1200x85_S1x1200x85_0_0_0 y⟩),
    View.canon_unit_zero hz, View.readAt_eq_ld, View.ld_unit_zero hz]

set_option maxHeartbeats 4000000 in
/-- The same at a tile of the THIRD map: the output ends at the third map's decoded block of the third input. -/
theorem sound_kernel_C (c : Dev nD) (E : Set ℕ) (i : grid0.Coords)
    (arg2 : Memref sig .tc .vmem S1x1200x85 .f32) (harg2 : arg2.IsWhole) (arg3 : Memref sig .tc .vmem S1x1200x85 .f32) (harg3 : arg3.IsWhole)
    (arg4 : Memref sig .tc .vmem S1x1200x85 .f32) (harg4 : arg4.IsWhole) (arg5 : Memref sig .tc .vmem S1x1200x85 .f32) (harg5 : arg5.IsWhole)
    (hc1 : ¬k0_cond1 i = 1#1) (hc2 : ¬k0_cond2 i = 1#1) (hc3 : k0_cond3 i = 1#1)
    (x0 x1 x2 : Vec F S1x1200x85 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x2)) -∗ K ⟨⟩))
      ⊢ wp frame (wpE (defs₀ (F := F)) Variants.none c none) E (cc0__decode_kernel i arg2 harg2 arg3 harg3 arg4 harg4 arg5 harg5) K := by
  simp only [cc0__decode_kernel_eq_skeleton]; unfold cc0__decode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz Facts₀.inb_S1x1200x85_S1x1200x85_0_0_0 y⟩),
    View.canon_unit_zero hz, View.readAt_eq_ld, View.ld_unit_zero hz]

/-! ## What the output's buffer holds after the body -/

/-- The block the body leaves in the output's buffer at point `t`: the decoded rows of the block of the map the
    point's tile belongs to. -/
def decoded (c : Dev nD) (t : Fin cfg0.N) : Vec F S1x1200x85 .f32 :=
  if k0_cond1 (grid0.coords t) = 1#1 then k0_pay1 (iblk m c 0 t)
  else if k0_cond2 (grid0.coords t) = 1#1 then k0_pay2 (iblk m c 1 t)
  else k0_pay3 (iblk m c 2 t)

theorem decoded_A (c : Dev nD) (t : Fin cfg0.N) (h1 : k0_cond1 (grid0.coords t) = 1#1) :
    decoded m c t = k0_pay1 (iblk m c 0 t) := by unfold decoded; rw [if_pos h1]
theorem decoded_B (c : Dev nD) (t : Fin cfg0.N) (h1 : ¬k0_cond1 (grid0.coords t) = 1#1) (h2 : k0_cond2 (grid0.coords t) = 1#1) :
    decoded m c t = k0_pay2 (iblk m c 1 t) := by unfold decoded; rw [if_neg h1, if_pos h2]
theorem decoded_C (c : Dev nD) (t : Fin cfg0.N) (h1 : ¬k0_cond1 (grid0.coords t) = 1#1) (h2 : ¬k0_cond2 (grid0.coords t) = 1#1) :
    decoded m c t = k0_pay3 (iblk m c 2 t) := by unfold decoded; rw [if_neg h1, if_neg h2]

/-! ## The pipeline's proof data -/

/-- The proof data of the one pipeline on core `c`: the arrays as the region finds them; after the body at point
    `t` each input's buffer at its block and the output's at the decoded block; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => decoded m c t
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = decoded m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: each input's memref holds its block, so the triple of the branch that runs applies
    (`branch`); the invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  rcases branch (grid0.coords t) with ⟨h1, h2, h3⟩ | ⟨h1, h2, h3⟩ | ⟨h1, h2, h3⟩
  · rw [decoded_A m c t h1]
    iapply (sound_kernel_A c Set.univ (grid0.coords t) _ _ _ _ _ _ _ _ h1 h2 h3 (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [decoded_B m c t h1 h2]
    iapply (sound_kernel_B c Set.univ (grid0.coords t) _ _ _ _ _ _ _ _ h1 h2 h3 (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [decoded_C m c t h1 h2]
    iapply (sound_kernel_C c Set.univ (grid0.coords t) _ _ _ _ _ _ _ _ h1 h2 h3 (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The output window is live at every point: the branch that runs stores into its buffer. -/
theorem live3 (t : Fin cfg0.N) : idle0 3 (grid0.coords t) = false := by
  show (!(k0_cond1 (grid0.coords t) == 1#1) && !(k0_cond2 (grid0.coords t) == 1#1) && !(k0_cond3 (grid0.coords t) == 1#1)) = false
  rcases branch (grid0.coords t) with ⟨h1, h2, h3⟩ | ⟨h1, h2, h3⟩ | ⟨h1, h2, h3⟩
  · rw [h1]; rfl
  · rw [h2]; simp
  · rw [h3]; simp

/-- The library's body obligation, at every point. -/
theorem body_obligation (c : Dev nD) : BodyObligation (dats (F := F) m 0 c) (defs₀ (F := F)) Variants.none () Set.univ := fun t => by
  rw [bigSep_W0, bigSep_W0, show cfg0.idle 3 (cfg0.grid.coords t) = false from live3 t]
  exact sound_body m c t

/-! ## The run and the frame -/

set_option backward.isDefEq.respectTransparency.types false in
/-- At the compiled mesh, for any float values, from any memory with zero counters: every weakly fair execution of
    @main on the TensorCores terminates, and every final state has every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- THE FRAME: the program runs, nothing faults, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KernelBlocks.lean ====
/-
  The fused decode kernel's result array, block by block.

  Three host reshapes come before the launch: each feature map [16, 3, H, H, 85] is laid out as rows, [16, 3H², 85]
  (`rows80`, `rows40`, `rows20`: what the region finds in the three input arrays). Grid point (b, j) writes back
  block (b, j, 0) of the result [16, 25200, 85] — 1 image, 1200 rows, all 85 channels — and reads block (b, j) of the
  first map's rows when j < 16, block (b, j - 16) of the second's when 16 ≤ j < 20, block (b, 0) of the third's when
  j = 20 (`tile_facts`, decided over the 336 points); the index maps clamp the two blocks the point does not use, and
  nothing is claimed of those. Every entry (b, n, d) of the result lies in the block of point (b, n / 1200)
  (`covered`), so the result is determined by what the points write back.
-/
import proofs.«106048_j74655121539887_2_alg».proof.Proof.BodyIdeal
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What the region finds in its input arrays -/

/-- The first input array is the first map reshaped to rows. -/
theorem rows80 (c : Dev nD) : (V m c main_v0 : S16x19200x85.Idx → Elt F .f32)
    = shapeCast S16x19200x85 (m ((c : Thread nD τ).loc main_arg0)) Facts₀.shapeCasts_S16x3x80x80x85_S16x19200x85 := by
  dsimp only [Gen.V, Gen.hostOps0]; after_results; rfl

/-- The second input array is the second map reshaped to rows. -/
theorem rows40 (c : Dev nD) : (V m c main_v1 : S16x4800x85.Idx → Elt F .f32)
    = shapeCast S16x4800x85 (m ((c : Thread nD τ).loc main_arg1)) Facts₀.shapeCasts_S16x3x40x40x85_S16x4800x85 := by
  dsimp only [Gen.V, Gen.hostOps0]; after_results; rfl

/-- The third input array is the third map reshaped to rows. -/
theorem rows20 (c : Dev nD) : (V m c main_v2 : S16x1200x85.Idx → Elt F .f32)
    = shapeCast S16x1200x85 (m ((c : Thread nD τ).loc main_arg2)) Facts₀.shapeCasts_S16x3x20x20x85_S16x1200x85 := by
  dsimp only [Gen.V, Gen.hostOps0]; after_results; rfl

/-! ## Which blocks a point reads and writes -/

/-- The printed index maps, decided over the grid: the result's block index is the point's (image, tile, 0); every
    input's block is of the same image and takes all channels; and the branch that runs reads the tile of its own map
    that the result's tile continues. -/
theorem tile_facts : ∀ t : Fin cfg0.N,
    win0_3.index t (0 : Fin 3) < 16 ∧ win0_3.index t (1 : Fin 3) < 21 ∧ win0_3.index t (2 : Fin 3) = 0
    ∧ win0_0.index t (0 : Fin 3) = win0_3.index t (0 : Fin 3) ∧ win0_0.index t (2 : Fin 3) = 0
    ∧ win0_1.index t (0 : Fin 3) = win0_3.index t (0 : Fin 3) ∧ win0_1.index t (2 : Fin 3) = 0
    ∧ win0_2.index t (0 : Fin 3) = win0_3.index t (0 : Fin 3) ∧ win0_2.index t (2 : Fin 3) = 0
    ∧ (k0_cond1 (grid0.coords t) = 1#1 → win0_3.index t (1 : Fin 3) < 16 ∧ win0_0.index t (1 : Fin 3) = win0_3.index t (1 : Fin 3))
    ∧ (k0_cond2 (grid0.coords t) = 1#1 → 16 ≤ win0_3.index t (1 : Fin 3) ∧ win0_3.index t (1 : Fin 3) < 20
        ∧ win0_1.index t (1 : Fin 3) + 16 = win0_3.index t (1 : Fin 3))
    ∧ (k0_cond3 (grid0.coords t) = 1#1 → win0_3.index t (1 : Fin 3) = 20 ∧ win0_2.index t (1 : Fin 3) = 0) :=
  (by decide +kernel : ∀ t : Fin grid0.N, _)

/-- Every (image, tile) is some point's. -/
theorem tile_onto : ∀ (q0 : Fin 16) (q1 : Fin 21), ∃ t : Fin cfg0.N, win0_3.index t = ![q0.val, q1.val, 0] :=
  (by decide +kernel : ∀ (q0 : Fin 16) (q1 : Fin 21), ∃ t : Fin grid0.N, win0_3.index t = ![q0.val, q1.val, 0])

/-- An index of the result is in point `t`'s block iff each coordinate is in the block's range on its axis. -/
theorem mem_tile (t : Fin cfg0.N) (i : S16x25200x85.Idx) :
    i ∈ ((cfg0.win 3).blk t).view.set ↔ ∀ a : Fin 3, win0_3.index t a * S1x1200x85.size a ≤ (i a).val ∧ (i a).val < win0_3.index t a * S1x1200x85.size a + S1x1200x85.size a := by
  show i ∈ ((View.whole main_v3).slice (win0_3.rect t)).set ↔ _
  rw [View.set_slice_whole, Rect.mem_set_unit]
  exact Iff.rfl

/-- Every entry of the result is in the block some point writes back: entry (b, n, d) in that of point (b, n / 1200). -/
theorem covered (i : S16x25200x85.Idx) :
    ∃ t : Fin cfg0.N, (cfg0.win 3).flush t = true ∧ i ∈ ((cfg0.win 3).blk t).view.set := by
  have hi0 : (i 0).val < 16 := (i 0).isLt
  have hi1 : (i 1).val < 25200 := (i 1).isLt
  have hi2 : (i 2).val < 85 := (i 2).isLt
  obtain ⟨t, ht⟩ := tile_onto ⟨(i 0).val, hi0⟩ ⟨(i 1).val / 1200, by omega⟩
  have q0 : win0_3.index t (0 : Fin 3) = (i 0).val := congrFun ht 0
  have q1 : win0_3.index t (1 : Fin 3) = (i 1).val / 1200 := congrFun ht 1
  have q2 : win0_3.index t (2 : Fin 3) = 0 := congrFun ht 2
  refine ⟨t, flush0_3 t, ?_⟩
  rw [mem_tile]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1200 ≤ (i 1).val ∧ (i 1).val < win0_3.index t (1 : Fin 3) * 1200 + 1200; omega
  | ⟨2, _⟩ => show win0_3.index t (2 : Fin 3) * 85 ≤ (i 2).val ∧ (i 2).val < win0_3.index t (2 : Fin 3) * 85 + 85; omega

/-! ## The run, with the result array named -/

/-- What point `t` writes back to the result: the decoded block the body left. -/
theorem flushed_decoded (c : Dev nD) (t : Fin cfg0.N) :
    (dats m 0 c).flushed 3 t = (cfg0.win 3).cut (grid0.coords t) (decoded m c t) := by
  show (cfg0.win 3).cut (grid0.coords t) ((dats m 0 c).after 3 t) = _
  rw [after0_3]

/-- The frame run with the result array after the run NAMED — what the points' write-backs leave —, the arguments
    unchanged. -/
theorem run_blocks : θ_run defs (onTc (τ := τ) (main (F := F))) ⟨m, fun _ => 0, ρ⟩ fun r => ∀ c : Dev nD,
      r.2.mem ((c : Thread nD τ).loc main_v3) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Blocks

end
-- ==== Proof.DecodeSpec.lean ====
/-
  The specification both programs are compared against: the decoded detection rows, as ONE function of the three
  feature maps, index by index over the extended reals.

  A feature map of side H holds, for each image b, anchor a and cell (h, w), a row of 85 channels. The result lays the
  rows of the three maps end to end along its middle axis — 3·80·80 = 19200 rows of the first map, then 3·40·40 = 4800
  of the second, then 3·20·20 = 1200 of the third, 25200 in all — row r of a map being its anchor r / H², cell
  ((r / H) mod H, r mod H). Of a row x scaled by its map's side s, the result's channels are
    0: (x0 - x2/2)·s          1: (x1 - x3/2)·s
    2: ((x0 - x2/2)·s + x2/2)·s    3: ((x1 - x3/2)·s + x3/2)·s
    d ≥ 4: 1 / (1 + e^(-x_d)).
  Halving is written as the product with the float 0.5; a quotient by the float 2.0 is the same extended real
  (`div_two`), and the expression 1 / (1 + e^(-x)) spelt with the float 1.0 is the logistic function (`logistic_spelt`).
-/
import Idealize.ShloMosaic.PureOps.Ideal
import Idealize.ShloMosaic.Lib.ValueIdx

noncomputable section

namespace Cert.Decode

open Idealize.ShloMosaic Idealize.ShloMosaic.ValueIdx

/-! ## The float constants the two programs spell -/

/-- The float `0.5` denotes the real 1/2. -/
theorem ofBits_half : Ideal.ofBits .f32 0x3F000000#32 = (((1 / 2 : ℝ)) : EReal) := by
  simp [Ideal.ofBits, Ideal.ieee, -EReal.coe_mul]; norm_num

/-- The float `2.0` denotes the real 2. -/
theorem ofBits_two : Ideal.ofBits .f32 0x40000000#32 = ((2 : ℝ) : EReal) := by
  simp [Ideal.ofBits, Ideal.ieee, -EReal.coe_mul]; norm_num

/-- The float `1.0` denotes 1. -/
theorem ofBits_one : Ideal.ofBits .f32 0x3F800000#32 = 1 := by
  simp [Ideal.ofBits, Ideal.ieee, -EReal.coe_mul]; norm_num

/-- Dividing by the float 2.0 is multiplying by the float 0.5, on every extended real (no finiteness asked:
    the quotient by a nonzero real IS the product with its reciprocal). -/
theorem div_two (x : EReal) :
    Ideal.div x (Ideal.ofBits .f32 0x40000000#32) = x * Ideal.ofBits .f32 0x3F000000#32 := by
  rw [ofBits_two, ofBits_half, Ideal.div_coe (by norm_num : (2 : ℝ) ≠ 0)]

/-- The expression `1 / (1 + e^(-x))` spelt with the float 1.0 is the logistic function. -/
theorem logistic_spelt (x : EReal) :
    Ideal.div (Ideal.ofBits .f32 0x3F800000#32) (Ideal.ofBits .f32 0x3F800000#32 + Ideal.exp (-x)) = Ideal.logistic x := by
  rw [ofBits_one]; rfl

/-! ## One row decoded -/

/-- The float 0.5. -/
abbrev half : EReal := Ideal.ofBits .f32 0x3F000000#32

/-- Channel `d` of the decoded row `x` of a map of side `s`: the two corners of the box from centre and extent
    (the second corner from the ALREADY SCALED first one), then the logistic of every later channel. -/
def decode (s : EReal) (x : Fin 85 → EReal) (d : Fin 85) : EReal :=
  if d.val = 0 then (x 0 - x 2 * half) * s
  else if d.val = 1 then (x 1 - x 3 * half) * s
  else if d.val = 2 then ((x 0 - x 2 * half) * s + x 2 * half) * s
  else if d.val = 3 then ((x 1 - x 3 * half) * s + x 3 * half) * s
  else Ideal.logistic (x d)

/-! ## A map's rows -/

/-- Row `r` of image `b` of the map of side 80: anchor r / 6400, cell ((r / 80) mod 80, r mod 80). -/
def row80 (x : (⟨5, ![16, 3, 80, 80, 85]⟩ : Shape).Idx → EReal) (b : Fin 16) (r : Fin 19200) (j : Fin 85) : EReal :=
  x (ix5 b ⟨r.val / 6400, by omega⟩ ⟨r.val / 80 % 80, by omega⟩ ⟨r.val % 80, by omega⟩ j)

/-- Row `r` of image `b` of the map of side 40: anchor r / 1600, cell ((r / 40) mod 40, r mod 40). -/
def row40 (x : (⟨5, ![16, 3, 40, 40, 85]⟩ : Shape).Idx → EReal) (b : Fin 16) (r : Fin 4800) (j : Fin 85) : EReal :=
  x (ix5 b ⟨r.val / 1600, by omega⟩ ⟨r.val / 40 % 40, by omega⟩ ⟨r.val % 40, by omega⟩ j)

/-- Row `r` of image `b` of the map of side 20: anchor r / 400, cell ((r / 20) mod 20, r mod 20). -/
def row20 (x : (⟨5, ![16, 3, 20, 20, 85]⟩ : Shape).Idx → EReal) (b : Fin 16) (r : Fin 1200) (j : Fin 85) : EReal :=
  x (ix5 b ⟨r.val / 400, by omega⟩ ⟨r.val / 20 % 20, by omega⟩ ⟨r.val % 20, by omega⟩ j)

/-! ## The whole result -/

/-- The floats 80.0, 40.0 and 20.0: each map's side. -/
abbrev side80 : EReal := Ideal.ofBits .f32 0x42A00000#32
abbrev side40 : EReal := Ideal.ofBits .f32 0x42200000#32
abbrev side20 : EReal := Ideal.ofBits .f32 0x41A00000#32

/-- Entry (b, n, d) of the result: the decoded row of the map that row n belongs to. -/
def result (x0 : (⟨5, ![16, 3, 80, 80, 85]⟩ : Shape).Idx → EReal) (x1 : (⟨5, ![16, 3, 40, 40, 85]⟩ : Shape).Idx → EReal)
    (x2 : (⟨5, ![16, 3, 20, 20, 85]⟩ : Shape).Idx → EReal) (b : Fin 16) (n : Fin 25200) (d : Fin 85) : EReal :=
  if h0 : n.val < 19200 then decode side80 (row80 x0 b ⟨n.val, h0⟩) d
  else if h1 : n.val < 24000 then decode side40 (row40 x1 b ⟨n.val - 19200, by omega⟩) d
  else decode side20 (row20 x2 b ⟨n.val - 24000, by omega⟩) d

/-- The result as an array [16, 25200, 85]. -/
def G (x0 : (⟨5, ![16, 3, 80, 80, 85]⟩ : Shape).Idx → EReal) (x1 : (⟨5, ![16, 3, 40, 40, 85]⟩ : Shape).Idx → EReal)
    (x2 : (⟨5, ![16, 3, 20, 20, 85]⟩ : Shape).Idx → EReal) : (⟨3, ![16, 25200, 85]⟩ : Shape).Idx → EReal :=
  fun i => result x0 x1 x2 (i 0) (i 1) (i 2)

theorem G_apply (x0 : (⟨5, ![16, 3, 80, 80, 85]⟩ : Shape).Idx → EReal) (x1 : (⟨5, ![16, 3, 40, 40, 85]⟩ : Shape).Idx → EReal)
    (x2 : (⟨5, ![16, 3, 20, 20, 85]⟩ : Shape).Idx → EReal) (b : Fin 16) (n : Fin 25200) (d : Fin 85) :
    G x0 x1 x2 (ix3 b n d) = result x0 x1 x2 b n d := rfl

end Cert.Decode

end
-- ==== Proof.KernelRows.lean ====
/-
  A row of an input block is a row of its feature map.

  Point t reads block (b, q) of a map's rows: 1 image, rows 1200·q … 1200·q + 1199, all channels. The rows array is the
  map reshaped, so entry (0, r, j) of the block is the map's entry at image b, row 1200·q + r, channel j — the map's
  five coordinates being the row's anchor, cell row and cell column: the two arrays agree at equal row-major positions.
-/
import proofs.«106048_j74655121539887_2_alg».proof.Proof.KernelBlocks
import proofs.«106048_j74655121539887_2_alg».proof.Proof.DecodeSpec
import Idealize.ShloMosaic.Lib.Pipeline.Value
import Idealize.ShloMosaic.Lib.ValueIdx

set_option maxRecDepth 16384

noncomputable section

namespace Cert.KernelIdeal.Rows

open Cert.KernelIdeal Cert.KernelIdeal.Gen Cert.KernelIdeal.Body Cert.KernelIdeal.Blocks
open Idealize.ShloMosaic Idealize.ShloMosaic.TcCoe Idealize.SL.Sem Idealize.ShloMosaic.ValueIdx

variable (m : (ℓ : Loc nD τ sig) → Buf (Elt Ideal) ℓ)

/-- Entry (0, r, j) of the first input's block at point `t` is row `n = 1200·q + r` of image `b` of the first map,
    when the block's index is (b, q, 0). -/
theorem block80_row (c : Dev nD) (t : Fin cfg0.N) (b : Fin 16) (n : Fin 19200) (r : Fin 1200) (j : Fin 85)
    (hb : win0_0.index t (0 : Fin 3) = b.val) (h2 : win0_0.index t (2 : Fin 3) = 0)
    (hn : win0_0.index t (1 : Fin 3) * 1200 + r.val = n.val) :
    iblk m c 0 t (ix3 (0 : Fin 1) r j) = Cert.Decode.row80 (m ((c : Thread nD τ).loc main_arg0)) b n j := by
  unfold iblk
  show V m c main_v0 (((cfg0.win 0).blk t).view.emb (ix3 (0 : Fin 1) r j)) = _
  rw [rows80]
  unfold Cert.Decode.row80
  refine shapeCast_apply _ _ _ _ ?_
  refine (Shape.rowMajor_val_five (d := ![16, 3, 80, 80, 85]) _).trans
    (Eq.trans ?_ (Shape.rowMajor_val_three (d := ![16, 19200, 85]) _).symm)
  show (((b.val * 3 + n.val / 6400) * 80 + n.val / 80 % 80) * 80 + n.val % 80) * 85 + j.val
    = ((win0_0.index t (0 : Fin 3) * 1 + 1 * 0) * 19200 + (win0_0.index t (1 : Fin 3) * 1200 + 1 * r.val)) * 85 + (win0_0.index t (2 : Fin 3) * 85 + 1 * j.val)
  have hn' : n.val < 19200 := n.isLt
  omega

/-- Entry (0, r, j) of the second input's block at point `t` is row `n = 1200·q + r` of image `b` of the second map. -/
theorem block40_row (c : Dev nD) (t : Fin cfg0.N) (b : Fin 16) (n : Fin 4800) (r : Fin 1200) (j : Fin 85)
    (hb : win0_1.index t (0 : Fin 3) = b.val) (h2 : win0_1.index t (2 : Fin 3) = 0)
    (hn : win0_1.index t (1 : Fin 3) * 1200 + r.val = n.val) :
    iblk m c 1 t (ix3 (0 : Fin 1) r j) = Cert.Decode.row40 (m ((c : Thread nD τ).loc main_arg1)) b n j := by
  unfold iblk
  show V m c main_v1 (((cfg0.win 1).blk t).view.emb (ix3 (0 : Fin 1) r j)) = _
  rw [rows40]
  unfold Cert.Decode.row40
  refine shapeCast_apply _ _ _ _ ?_
  refine (Shape.rowMajor_val_five (d := ![16, 3, 40, 40, 85]) _).trans
    (Eq.trans ?_ (Shape.rowMajor_val_three (d := ![16, 4800, 85]) _).symm)
  show (((b.val * 3 + n.val / 1600) * 40 + n.val / 40 % 40) * 40 + n.val % 40) * 85 + j.val
    = ((win0_1.index t (0 : Fin 3) * 1 + 1 * 0) * 4800 + (win0_1.index t (1 : Fin 3) * 1200 + 1 * r.val)) * 85 + (win0_1.index t (2 : Fin 3) * 85 + 1 * j.val)
  have hn' : n.val < 4800 := n.isLt
  omega

/-- Entry (0, r, j) of the third input's block at point `t` is row `n = 1200·q + r` of image `b` of the third map. -/
theorem block20_row (c : Dev nD) (t : Fin cfg0.N) (b : Fin 16) (n : Fin 1200) (r : Fin 1200) (j : Fin 85)
    (hb : win0_2.index t (0 : Fin 3) = b.val) (h2 : win0_2.index t (2 : Fin 3) = 0)
    (hn : win0_2.index t (1 : Fin 3) * 1200 + r.val = n.val) :
    iblk m c 2 t (ix3 (0 : Fin 1) r j) = Cert.Decode.row20 (m ((c : Thread nD τ).loc main_arg2)) b n j := by
  unfold iblk
  show V m c main_v2 (((cfg0.win 2).blk t).view.emb (ix3 (0 : Fin 1) r j)) = _
  rw [rows20]
  unfold Cert.Decode.row20
  refine shapeCast_apply _ _ _ _ ?_
  refine (Shape.rowMajor_val_five (d := ![16, 3, 20, 20, 85]) _).trans
    (Eq.trans ?_ (Shape.rowMajor_val_three (d := ![16, 1200, 85]) _).symm)
  show (((b.val * 3 + n.val / 400) * 20 + n.val / 20 % 20) * 20 + n.val % 20) * 85 + j.val
    = ((win0_2.index t (0 : Fin 3) * 1 + 1 * 0) * 1200 + (win0_2.index t (1 : Fin 3) * 1200 + 1 * r.val)) * 85 + (win0_2.index t (2 : Fin 3) * 85 + 1 * j.val)
  have hn' : n.val < 1200 := n.isLt
  omega

/-- Where entry (0, r, d) of point `t`'s block sits in the result: image, row 1200·(tile) + r, channel d. -/
theorem tile_index (t : Fin cfg0.N) (b : Fin 16) (n : Fin 25200) (r : Fin 1200) (d : Fin 85)
    (hb : win0_3.index t (0 : Fin 3) = b.val) (h2 : win0_3.index t (2 : Fin 3) = 0)
    (hn : win0_3.index t (1 : Fin 3) * 1200 + r.val = n.val) :
    ((cfg0.win 3).blk t).view.emb (ix3 (0 : Fin 1) r d) = ix3 b n d := by
  funext a; apply Fin.ext
  match a with
  | ⟨0, _⟩ => show win0_3.index t (0 : Fin 3) * 1 + 1 * 0 = b.val; omega
  | ⟨1, _⟩ => show win0_3.index t (1 : Fin 3) * 1200 + 1 * r.val = n.val; omega
  | ⟨2, _⟩ => show win0_3.index t (2 : Fin 3) * 85 + 1 * d.val = d.val; omega

end Cert.KernelIdeal.Rows

end
-- ==== Proof.DecodedBlock.lean ====
/-
  The kernel body's stored value, read at an index over the extended reals.

  The body takes a block x of shape [1, 1200, 85] — 1200 rows of 85 channels —, views it as a matrix [1200, 85], cuts
  its first four columns b0 … b3, forms with the float 0.5 and the map's side s
    x1 = (b0 - b2·0.5)·s,   y1 = (b1 - b3·0.5)·s,   x2 = (x1 + b2·0.5)·s,   y2 = (y1 + b3·0.5)·s,
  lays these four columns side by side, appends columns 4 … 84 of the logistic of the whole matrix, and views the
  [1200, 85] result as [1, 1200, 85] again. So entry (0, r, d) of what it stores is, of row r of the block,
  channel d of the decoded row (`Cert.Decode.decode`): the corner formulas for d = 0, 1, 2, 3 and the logistic of
  channel d from 4 on. The three payloads differ only in the float that spells the side (80.0, 40.0, 20.0).

  Each layout operation is read at an index by coordinates: adding or dropping the leading unit axis keeps (r, d);
  a two-piece concatenation along the columns reads its first piece when d < 4 and its second at column d - 4
  otherwise; the four-piece concatenation reads piece d at its only column; a column cut at offset k reads column k.
  The arithmetic and the logistic act entry by entry.
-/
import proofs.«106048_j74655121539887_2_alg».proof.Proof.Gen.KernelIdeal.Skeleton
import proofs.«106048_j74655121539887_2_alg».proof.Proof.DecodeSpec
import Idealize.ShloMosaic.Lib.Pipeline.Value
import Idealize.ShloMosaic.Lib.ValueIdx
import Idealize.ShloMosaic.Lib.ValueLayout

noncomputable section

namespace Cert.KernelIdeal.DecodedBlock

open Cert.KernelIdeal Cert.KernelIdeal.Gen Idealize.ShloMosaic Idealize.ShloMosaic.ValueIdx

/-! ## The layout operations at an index -/

/-- Column `k` of the block viewed as a matrix, read at row `r`: entry (0, r, k) of the block. -/
theorem col_apply (x : Vec Ideal S1x1200x85 .f32) (o : Nat) (hs : S1200x85.Slices ![0, o] S1200x1)
    (r : Fin 1200) (k : Fin 85) (hk : k.val = o) :
    extractStridedSlice S1200x1 ![0, o] (shapeCast S1200x85 x shapeCasts_S1x1200x85_S1200x85) hs (ix2 r (0 : Fin 1))
      = x (ix3 (0 : Fin 1) r k) :=
  (slice2_axis1_apply o _ hs r (0 : Fin 1) k (by rw [hk]; rfl)).trans (shapeCast_1ab_ab_apply x _ r k)

/-- Four columns laid side by side, read at column 0: piece 0. -/
theorem cat4_0 {α : Type} (p0 p1 p2 p3 : S1200x1.Idx → α) (r : Fin 1200) (c : Fin 4) (hc : c.val = 0) :
    concatenate S1200x4 1 [⟨S1200x1, p0⟩, ⟨S1200x1, p1⟩, ⟨S1200x1, p2⟩, ⟨S1200x1, p3⟩]
      concatenates_S1200x1_S1200x1_S1200x1_S1200x1_S1200x4_d1 (ix2 r c) = p0 (ix2 r (0 : Fin 1)) :=
  concatenate_apply_piece (1 : Fin 2) [⟨S1200x1, p0⟩, ⟨S1200x1, p1⟩, ⟨S1200x1, p2⟩, ⟨S1200x1, p3⟩] _ (ix2 r c) 0
    (by show (0 : Nat) < 4; omega)
    S1200x1 p0 rfl rfl 0 rfl (ix2 r (0 : Fin 1))
    (fun b hb => by match b with | ⟨0, _⟩ => rfl | ⟨1, _⟩ => exact absurd rfl hb)
    (by show 0 + 0 = c.val; omega)

/-- Four columns laid side by side, read at column 1: piece 1. -/
theorem cat4_1 {α : Type} (p0 p1 p2 p3 : S1200x1.Idx → α) (r : Fin 1200) (c : Fin 4) (hc : c.val = 1) :
    concatenate S1200x4 1 [⟨S1200x1, p0⟩, ⟨S1200x1, p1⟩, ⟨S1200x1, p2⟩, ⟨S1200x1, p3⟩]
      concatenates_S1200x1_S1200x1_S1200x1_S1200x1_S1200x4_d1 (ix2 r c) = p1 (ix2 r (0 : Fin 1)) :=
  concatenate_apply_piece (1 : Fin 2) [⟨S1200x1, p0⟩, ⟨S1200x1, p1⟩, ⟨S1200x1, p2⟩, ⟨S1200x1, p3⟩] _ (ix2 r c) 1
    (by show (1 : Nat) < 4; omega)
    S1200x1 p1 rfl rfl 1 rfl (ix2 r (0 : Fin 1))
    (fun b hb => by match b with | ⟨0, _⟩ => rfl | ⟨1, _⟩ => exact absurd rfl hb)
    (by show 1 + 0 = c.val; omega)

/-- Four columns laid side by side, read at column 2: piece 2. -/
theorem cat4_2 {α : Type} (p0 p1 p2 p3 : S1200x1.Idx → α) (r : Fin 1200) (c : Fin 4) (hc : c.val = 2) :
    concatenate S1200x4 1 [⟨S1200x1, p0⟩, ⟨S1200x1, p1⟩, ⟨S1200x1, p2⟩, ⟨S1200x1, p3⟩]
      concatenates_S1200x1_S1200x1_S1200x1_S1200x1_S1200x4_d1 (ix2 r c) = p2 (ix2 r (0 : Fin 1)) :=
  concatenate_apply_piece (1 : Fin 2) [⟨S1200x1, p0⟩, ⟨S1200x1, p1⟩, ⟨S1200x1, p2⟩, ⟨S1200x1, p3⟩] _ (ix2 r c) 2
    (by show (2 : Nat) < 4; omega)
    S1200x1 p2 rfl rfl 2 rfl (ix2 r (0 : Fin 1))
    (fun b hb => by match b with | ⟨0, _⟩ => rfl | ⟨1, _⟩ => exact absurd rfl hb)
    (by show 2 + 0 = c.val; omega)

/-- Four columns laid side by side, read at column 3: piece 3. -/
theorem cat4_3 {α : Type} (p0 p1 p2 p3 : S1200x1.Idx → α) (r : Fin 1200) (c : Fin 4) (hc : c.val = 3) :
    concatenate S1200x4 1 [⟨S1200x1, p0⟩, ⟨S1200x1, p1⟩, ⟨S1200x1, p2⟩, ⟨S1200x1, p3⟩]
      concatenates_S1200x1_S1200x1_S1200x1_S1200x1_S1200x4_d1 (ix2 r c) = p3 (ix2 r (0 : Fin 1)) :=
  concatenate_apply_piece (1 : Fin 2) [⟨S1200x1, p0⟩, ⟨S1200x1, p1⟩, ⟨S1200x1, p2⟩, ⟨S1200x1, p3⟩] _ (ix2 r c) 3
    (by show (3 : Nat) < 4; omega)
    S1200x1 p3 rfl rfl 3 rfl (ix2 r (0 : Fin 1))
    (fun b hb => by match b with | ⟨0, _⟩ => rfl | ⟨1, _⟩ => exact absurd rfl hb)
    (by show 3 + 0 = c.val; omega)

/-! ## The stored value at an index -/

/-- Entry (0, r, d) of the stored value of the map of side 80: channel `d` of the decoded row `r`. -/
theorem pay1_apply (x : Vec Ideal S1x1200x85 .f32) (r : Fin 1200) (d : Fin 85) :
    k0_pay1 (F := Ideal) x (ix3 (0 : Fin 1) r d)
      = Cert.Decode.decode Cert.Decode.side80 (fun j => x (ix3 (0 : Fin 1) r j)) d := by
  unfold k0_pay1
  refine (shapeCast_ab_1ab_apply _ _ (0 : Fin 1) r d).trans ?_
  by_cases h4 : d.val < 4
  · refine (concatenate_pair_apply_left (t := S1200x85) (s₁ := S1200x4) (s₂ := S1200x81) (1 : Fin 2) _ _ _ (ix2 r d) rfl
      (ix2 r (⟨d.val, h4⟩ : Fin 4)) (fun b => by match b with | ⟨0, _⟩ => rfl | ⟨1, _⟩ => rfl)).trans ?_
    have hd : d.val = 0 ∨ d.val = 1 ∨ d.val = 2 ∨ d.val = 3 := by omega
    rcases hd with h | h | h | h
    · refine (cat4_0 _ _ _ _ r _ h).trans ?_
      simp only [mulf_apply, subf_apply, addf_apply, broadcast_apply]
      rw [col_apply x 0 _ r 0 rfl, col_apply x 2 _ r 2 rfl]
      unfold Cert.Decode.decode
      rw [if_pos h]
      rfl
    · refine (cat4_1 _ _ _ _ r _ h).trans ?_
      simp only [mulf_apply, subf_apply, addf_apply, broadcast_apply]
      rw [col_apply x 1 _ r 1 rfl, col_apply x 3 _ r 3 rfl]
      unfold Cert.Decode.decode
      rw [if_neg (by omega), if_pos h]
      rfl
    · refine (cat4_2 _ _ _ _ r _ h).trans ?_
      simp only [mulf_apply, subf_apply, addf_apply, broadcast_apply]
      rw [col_apply x 0 _ r 0 rfl, col_apply x 2 _ r 2 rfl]
      unfold Cert.Decode.decode
      rw [if_neg (by omega), if_neg (by omega), if_pos h]
      rfl
    · refine (cat4_3 _ _ _ _ r _ h).trans ?_
      simp only [mulf_apply, subf_apply, addf_apply, broadcast_apply]
      rw [col_apply x 1 _ r 1 rfl, col_apply x 3 _ r 3 rfl]
      unfold Cert.Decode.decode
      rw [if_neg (by omega), if_neg (by omega), if_neg (by omega), if_pos h]
      rfl
  · have h4' : 4 ≤ d.val := Nat.le_of_not_lt h4
    refine (concatenate_pair_apply_right (t := S1200x85) (s₁ := S1200x4) (s₂ := S1200x81) (1 : Fin 2) _ _ _ (ix2 r d) rfl rfl
      (ix2 r (⟨d.val - 4, by omega⟩ : Fin 81))
      (fun b hb => by match b with | ⟨0, _⟩ => rfl | ⟨1, _⟩ => exact absurd rfl hb)
      (by show d.val - 4 + 4 = d.val; omega)).trans ?_
    refine (slice2_axis1_apply 4 _ _ r (⟨d.val - 4, by omega⟩ : Fin 81) d (by show d.val = 4 + (d.val - 4); omega)).trans ?_
    refine (congrArg Ideal.logistic (shapeCast_1ab_ab_apply x _ r d)).trans ?_
    unfold Cert.Decode.decode
    rw [if_neg (by omega), if_neg (by omega), if_neg (by omega), if_neg (by omega)]

/-- Entry (0, r, d) of the stored value of the map of side 40: channel `d` of the decoded row `r`. -/
theorem pay2_apply (x : Vec Ideal S1x1200x85 .f32) (r : Fin 1200) (d : Fin 85) :
    k0_pay2 (F := Ideal) x (ix3 (0 : Fin 1) r d)
      = Cert.Decode.decode Cert.Decode.side40 (fun j => x (ix3 (0 : Fin 1) r j)) d := by
  unfold k0_pay2
  refine (shapeCast_ab_1ab_apply _ _ (0 : Fin 1) r d).trans ?_
  by_cases h4 : d.val < 4
  · refine (concatenate_pair_apply_left (t := S1200x85) (s₁ := S1200x4) (s₂ := S1200x81) (1 : Fin 2) _ _ _ (ix2 r d) rfl
      (ix2 r (⟨d.val, h4⟩ : Fin 4)) (fun b => by match b with | ⟨0, _⟩ => rfl | ⟨1, _⟩ => rfl)).trans ?_
    have hd : d.val = 0 ∨ d.val = 1 ∨ d.val = 2 ∨ d.val = 3 := by omega
    rcases hd with h | h | h | h
    · refine (cat4_0 _ _ _ _ r _ h).trans ?_
      simp only [mulf_apply, subf_apply, addf_apply, broadcast_apply]
      rw [col_apply x 0 _ r 0 rfl, col_apply x 2 _ r 2 rfl]
      unfold Cert.Decode.decode
      rw [if_pos h]
      rfl
    · refine (cat4_1 _ _ _ _ r _ h).trans ?_
      simp only [mulf_apply, subf_apply, addf_apply, broadcast_apply]
      rw [col_apply x 1 _ r 1 rfl, col_apply x 3 _ r 3 rfl]
      unfold Cert.Decode.decode
      rw [if_neg (by omega), if_pos h]
      rfl
    · refine (cat4_2 _ _ _ _ r _ h).trans ?_
      simp only [mulf_apply, subf_apply, addf_apply, broadcast_apply]
      rw [col_apply x 0 _ r 0 rfl, col_apply x 2 _ r 2 rfl]
      unfold Cert.Decode.decode
      rw [if_neg (by omega), if_neg (by omega), if_pos h]
      rfl
    · refine (cat4_3 _ _ _ _ r _ h).trans ?_
      simp only [mulf_apply, subf_apply, addf_apply, broadcast_apply]
      rw [col_apply x 1 _ r 1 rfl, col_apply x 3 _ r 3 rfl]
      unfold Cert.Decode.decode
      rw [if_neg (by omega), if_neg (by omega), if_neg (by omega), if_pos h]
      rfl
  · have h4' : 4 ≤ d.val := Nat.le_of_not_lt h4
    refine (concatenate_pair_apply_right (t := S1200x85) (s₁ := S1200x4) (s₂ := S1200x81) (1 : Fin 2) _ _ _ (ix2 r d) rfl rfl
      (ix2 r (⟨d.val - 4, by omega⟩ : Fin 81))
      (fun b hb => by match b with | ⟨0, _⟩ => rfl | ⟨1, _⟩ => exact absurd rfl hb)
      (by show d.val - 4 + 4 = d.val; omega)).trans ?_
    refine (slice2_axis1_apply 4 _ _ r (⟨d.val - 4, by omega⟩ : Fin 81) d (by show d.val = 4 + (d.val - 4); omega)).trans ?_
    refine (congrArg Ideal.logistic (shapeCast_1ab_ab_apply x _ r d)).trans ?_
    unfold Cert.Decode.decode
    rw [if_neg (by omega), if_neg (by omega), if_neg (by omega), if_neg (by omega)]

/-- Entry (0, r, d) of the stored value of the map of side 20: channel `d` of the decoded row `r`. -/
theorem pay3_apply (x : Vec Ideal S1x1200x85 .f32) (r : Fin 1200) (d : Fin 85) :
    k0_pay3 (F := Ideal) x (ix3 (0 : Fin 1) r d)
      = Cert.Decode.decode Cert.Decode.side20 (fun j => x (ix3 (0 : Fin 1) r j)) d := by
  unfold k0_pay3
  refine (shapeCast_ab_1ab_apply _ _ (0 : Fin 1) r d).trans ?_
  by_cases h4 : d.val < 4
  · refine (concatenate_pair_apply_left (t := S1200x85) (s₁ := S1200x4) (s₂ := S1200x81) (1 : Fin 2) _ _ _ (ix2 r d) rfl
      (ix2 r (⟨d.val, h4⟩ : Fin 4)) (fun b => by match b with | ⟨0, _⟩ => rfl | ⟨1, _⟩ => rfl)).trans ?_
    have hd : d.val = 0 ∨ d.val = 1 ∨ d.val = 2 ∨ d.val = 3 := by omega
    rcases hd with h | h | h | h
    · refine (cat4_0 _ _ _ _ r _ h).trans ?_
      simp only [mulf_apply, subf_apply, addf_apply, broadcast_apply]
      rw [col_apply x 0 _ r 0 rfl, col_apply x 2 _ r 2 rfl]
      unfold Cert.Decode.decode
      rw [if_pos h]
      rfl
    · refine (cat4_1 _ _ _ _ r _ h).trans ?_
      simp only [mulf_apply, subf_apply, addf_apply, broadcast_apply]
      rw [col_apply x 1 _ r 1 rfl, col_apply x 3 _ r 3 rfl]
      unfold Cert.Decode.decode
      rw [if_neg (by omega), if_pos h]
      rfl
    · refine (cat4_2 _ _ _ _ r _ h).trans ?_
      simp only [mulf_apply, subf_apply, addf_apply, broadcast_apply]
      rw [col_apply x 0 _ r 0 rfl, col_apply x 2 _ r 2 rfl]
      unfold Cert.Decode.decode
      rw [if_neg (by omega), if_neg (by omega), if_pos h]
      rfl
    · refine (cat4_3 _ _ _ _ r _ h).trans ?_
      simp only [mulf_apply, subf_apply, addf_apply, broadcast_apply]
      rw [col_apply x 1 _ r 1 rfl, col_apply x 3 _ r 3 rfl]
      unfold Cert.Decode.decode
      rw [if_neg (by omega), if_neg (by omega), if_neg (by omega), if_pos h]
      rfl
  · have h4' : 4 ≤ d.val := Nat.le_of_not_lt h4
    refine (concatenate_pair_apply_right (t := S1200x85) (s₁ := S1200x4) (s₂ := S1200x81) (1 : Fin 2) _ _ _ (ix2 r d) rfl rfl
      (ix2 r (⟨d.val - 4, by omega⟩ : Fin 81))
      (fun b hb => by match b with | ⟨0, _⟩ => rfl | ⟨1, _⟩ => exact absurd rfl hb)
      (by show d.val - 4 + 4 = d.val; omega)).trans ?_
    refine (slice2_axis1_apply 4 _ _ r (⟨d.val - 4, by omega⟩ : Fin 81) d (by show d.val = 4 + (d.val - 4); omega)).trans ?_
    refine (congrArg Ideal.logistic (shapeCast_1ab_ab_apply x _ r d)).trans ?_
    unfold Cert.Decode.decode
    rw [if_neg (by omega), if_neg (by omega), if_neg (by omega), if_neg (by omega)]

end Cert.KernelIdeal.DecodedBlock

end
-- ==== Proof.KernelValue.lean ====
/-
  The fused decode kernel's result is the specification's array.

  Point t writes back the block its running branch decoded. The branch for tiles below 16 decodes the first map's
  block, whose rows are rows 1200·tile + r < 19200 of the result; the branch for tiles 16 … 19 the second map's, rows
  19200 + 1200·(tile - 16) + r; the branch for tile 20 the third map's, rows 24000 + r. In each case entry (0, r, d) of
  the decoded block is the decoded row of the map's row, read at channel d — the specification's entry at the place the
  block's entry takes in the result (`tile_entry`). The blocks cover the result, so the array after the run is the
  specification's (`final`), and the run ends with it (`run`).
-/
import proofs.«106048_j74655121539887_2_alg».proof.Proof.KernelRows
import proofs.«106048_j74655121539887_2_alg».proof.Proof.DecodedBlock

set_option maxRecDepth 16384

noncomputable section

namespace Cert.KernelIdeal.Result

open Cert.KernelIdeal Cert.KernelIdeal.Gen Cert.KernelIdeal.Body Cert.KernelIdeal.Blocks Cert.KernelIdeal.Rows Cert.KernelIdeal.DecodedBlock
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's array of the three maps as core `c` is launched with them. -/
abbrev spec (c : Dev nD) : S16x25200x85.Idx → EReal :=
  Cert.Decode.G (m ((c : Thread nD τ).loc main_arg0)) (m ((c : Thread nD τ).loc main_arg1)) (m ((c : Thread nD τ).loc main_arg2))

/-- Entry (0, r, d) of the block point `t` decodes is the specification's entry at its place in the result. -/
theorem tile_entry (c : Dev nD) (t : Fin cfg0.N) (r : Fin 1200) (d : Fin 85) :
    decoded m c t (ix3 (0 : Fin 1) r d) = spec m c (((cfg0.win 3).blk t).view.emb (ix3 (0 : Fin 1) r d)) := by
  obtain ⟨f0, f1, f2, e00, e02, e10, e12, e20, e22, hA, hB, hC⟩ := tile_facts t
  have hr : r.val < 1200 := r.isLt
  rcases branch (grid0.coords t) with ⟨h1, h2, h3⟩ | ⟨h1, h2, h3⟩ | ⟨h1, h2, h3⟩
  · obtain ⟨hlt, he⟩ := hA h1
    have hn : win0_3.index t (1 : Fin 3) * 1200 + r.val < 25200 := by omega
    rw [decoded_A m c t h1, pay1_apply,
      tile_index t ⟨win0_3.index t (0 : Fin 3), f0⟩ ⟨win0_3.index t (1 : Fin 3) * 1200 + r.val, hn⟩ r d rfl f2 rfl]
    show _ = Cert.Decode.result _ _ _ _ _ _
    unfold Cert.Decode.result
    rw [dif_pos (show win0_3.index t (1 : Fin 3) * 1200 + r.val < 19200 by omega)]
    refine congrArg (fun x => Cert.Decode.decode Cert.Decode.side80 x d) (funext fun j => ?_)
    exact block80_row m c t _ _ r j e00 e02 (by rw [he])
  · obtain ⟨hge, hlt, he⟩ := hB h2
    have hn : win0_3.index t (1 : Fin 3) * 1200 + r.val < 25200 := by omega
    rw [decoded_B m c t h1 h2, pay2_apply,
      tile_index t ⟨win0_3.index t (0 : Fin 3), f0⟩ ⟨win0_3.index t (1 : Fin 3) * 1200 + r.val, hn⟩ r d rfl f2 rfl]
    show _ = Cert.Decode.result _ _ _ _ _ _
    unfold Cert.Decode.result
    rw [dif_neg (show ¬win0_3.index t (1 : Fin 3) * 1200 + r.val < 19200 by omega),
      dif_pos (show win0_3.index t (1 : Fin 3) * 1200 + r.val < 24000 by omega)]
    refine congrArg (fun x => Cert.Decode.decode Cert.Decode.side40 x d) (funext fun j => ?_)
    exact block40_row m c t _ _ r j e10 e12 (by show _ = win0_3.index t (1 : Fin 3) * 1200 + r.val - 19200; omega)
  · obtain ⟨he3, he⟩ := hC h3
    have hn : win0_3.index t (1 : Fin 3) * 1200 + r.val < 25200 := by omega
    rw [decoded_C m c t h1 h2, pay3_apply,
      tile_index t ⟨win0_3.index t (0 : Fin 3), f0⟩ ⟨win0_3.index t (1 : Fin 3) * 1200 + r.val, hn⟩ r d rfl f2 rfl]
    show _ = Cert.Decode.result _ _ _ _ _ _
    unfold Cert.Decode.result
    rw [dif_neg (show ¬win0_3.index t (1 : Fin 3) * 1200 + r.val < 19200 by omega),
      dif_neg (show ¬win0_3.index t (1 : Fin 3) * 1200 + r.val < 24000 by omega)]
    refine congrArg (fun x => Cert.Decode.decode Cert.Decode.side20 x d) (funext fun j => ?_)
    exact block20_row m c t _ _ r j e20 e22 (by show _ = win0_3.index t (1 : Fin 3) * 1200 + r.val - 24000; omega)

/-- WHAT POINT `t` WRITES BACK is block `t` of the specification's array. -/
theorem flushed_eq (c : Dev nD) (t : Fin cfg0.N) :
    (dats m 0 c).flushed 3 t = ((cfg0.win 3).blk t).view.read (Elt Ideal) (spec m c) := by
  rw [flushed_decoded]
  funext y
  show decoded m c t y = spec m c (((cfg0.win 3).blk t).view.emb y)
  have hy : y = ix3 (0 : Fin 1) (y 1) (y 2) := by
    funext a
    match a with
    | ⟨0, _⟩ => exact Fin.ext (by have h0 : (y 0).val < 1 := (y 0).isLt; show (y 0).val = 0; omega)
    | ⟨1, _⟩ => rfl
    | ⟨2, _⟩ => rfl
  exact (congrArg (decoded m c t) hy).trans ((tile_entry m c t (y 1) (y 2)).trans
    (congrArg (fun z => spec m c (((cfg0.win 3).blk t).view.emb z)) hy.symm))

/-- THE RESULT ARRAY after the run is the specification's. -/
theorem final (c : Dev nD) : (dats m 0 c).arrAt 3 cfg0.N = spec m c :=
  (dats m 0 c).arrAt_eq_of_cover 3 (spec m c) (fun t _ => flushed_eq m c t) covered

/-- The kernel's run: it ends with the result at the specification's array of the arguments, the arguments unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Result

end
-- ==== Proof.RefRows80.lean ====
/-
  The reference's layout operations on the feature map of side 80, read at an index.

  The reference cuts the last axis of the map [16, 3, 80, 80, 85] (channels 0–3: the box; channel 4: the confidence;
  channels 5–84: the classes) and flattens anchor and cell into one axis of 3·80·80 = 19200 rows. A reshape keeps
  the row-major order, so row r of image b is anchor r / 6400, cell ((r / 80) mod 80, r mod 80): the position
  ((b·3 + a)·80 + h)·80 + w among the cells is b·19200 + r. Each lemma below reads one such chain of a slice and
  one or two reshapes at (b, r[, channel]) as the map's entry at that cell; the last one reads a single column of
  the flattened box [16, 19200, 4] as a matrix [16, 19200].
-/
import proofs.«106048_j74655121539887_2_alg».proof.Proof.Gen.ReferenceIdeal
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

variable {α : Type}

/-- Row r's cell of image b in an array [16, 3, 80, 80, m], at channel j: anchor r / 6400, cell
    ((r / 80) mod 80, r mod 80). -/
abbrev cell80 {m : Nat} (b : Fin 16) (r : Fin 19200) (j : Fin m) : (⟨5, ![16, 3, 80, 80, m]⟩ : Shape).Idx :=
  ix5 b (⟨r.val / 6400, by omega⟩ : Fin 3) (⟨r.val / 80 % 80, by omega⟩ : Fin 80) (⟨r.val % 80, by omega⟩ : Fin 80) j

/-- Channels 0–3 of the map, flattened to [16, 19200, 4], at (b, r, c): the map at row r's cell, channel c. -/
theorem box80_apply (x : S16x3x80x80x85.Idx → α) (b : Fin 16) (r : Fin 19200) (c : Fin 4) :
    shapeCast S16x19200x4 (extractStridedSlice S16x3x80x80x4 ![0, 0, 0, 0, 0] x slices_S16x3x80x80x85_S16x3x80x80x4_0_0_0_0_0)
        shapeCasts_S16x3x80x80x4_S16x19200x4 (ix3 b r c)
      = x (cell80 b r (⟨c.val, by omega⟩ : Fin 85)) := by
  refine (shapeCast_apply _ _ (ix3 b r c) (cell80 b r c)
    (by rw [Shape.rowMajor_val_five, Shape.rowMajor_val_three]
        show (((b.val * 3 + r.val / 6400) * 80 + r.val / 80 % 80) * 80 + r.val % 80) * 4 + c.val
          = (b.val * 19200 + r.val) * 4 + c.val
        omega)).trans ?_
  exact extractStridedSlice_apply _ _ _ _ _ (fun a => match a with
    | ⟨0, _⟩ => by show b.val = 0 + b.val; omega
    | ⟨1, _⟩ => by show r.val / 6400 = 0 + r.val / 6400; omega
    | ⟨2, _⟩ => by show r.val / 80 % 80 = 0 + r.val / 80 % 80; omega
    | ⟨3, _⟩ => by show r.val % 80 = 0 + r.val % 80; omega
    | ⟨4, _⟩ => by show c.val = 0 + c.val; omega)

/-- Channel 4 of the map, its unit axis dropped and then flattened to [16, 19200], at (b, r): the map at row r's
    cell, channel 4. -/
theorem conf80_apply (x : S16x3x80x80x85.Idx → α) (b : Fin 16) (r : Fin 19200) :
    shapeCast S16x19200 (shapeCast S16x3x80x80
        (extractStridedSlice S16x3x80x80x1 ![0, 0, 0, 0, 4] x slices_S16x3x80x80x85_S16x3x80x80x1_0_0_0_0_4)
        shapeCasts_S16x3x80x80x1_S16x3x80x80) shapeCasts_S16x3x80x80_S16x19200 (ix2 b r)
      = x (cell80 b r (⟨4, by omega⟩ : Fin 85)) := by
  refine (shapeCast_apply _ _ (ix2 b r)
    (ix4 b (⟨r.val / 6400, by omega⟩ : Fin 3) (⟨r.val / 80 % 80, by omega⟩ : Fin 80) (⟨r.val % 80, by omega⟩ : Fin 80))
    (by rw [Shape.rowMajor_val_four, Shape.rowMajor_val_two]
        show ((b.val * 3 + r.val / 6400) * 80 + r.val / 80 % 80) * 80 + r.val % 80 = b.val * 19200 + r.val
        omega)).trans ?_
  refine (shapeCast_apply _ _ _ (cell80 b r (⟨0, by omega⟩ : Fin 1))
    (by rw [Shape.rowMajor_val_five, Shape.rowMajor_val_four]
        show (((b.val * 3 + r.val / 6400) * 80 + r.val / 80 % 80) * 80 + r.val % 80) * 1 + 0
          = ((b.val * 3 + r.val / 6400) * 80 + r.val / 80 % 80) * 80 + r.val % 80
        omega)).trans ?_
  exact extractStridedSlice_apply _ _ _ _ _ (fun a => match a with
    | ⟨0, _⟩ => by show b.val = 0 + b.val; omega
    | ⟨1, _⟩ => by show r.val / 6400 = 0 + r.val / 6400; omega
    | ⟨2, _⟩ => by show r.val / 80 % 80 = 0 + r.val / 80 % 80; omega
    | ⟨3, _⟩ => by show r.val % 80 = 0 + r.val % 80; omega
    | ⟨4, _⟩ => by show 4 = 4 + 0; omega)

/-- Channels 5–84 of the map, flattened to [16, 19200, 80], at (b, r, k): the map at row r's cell, channel k + 5. -/
theorem cls80_apply (x : S16x3x80x80x85.Idx → α) (b : Fin 16) (r : Fin 19200) (k : Fin 80) :
    shapeCast S16x19200x80 (extractStridedSlice S16x3x80x80x80 ![0, 0, 0, 0, 5] x slices_S16x3x80x80x85_S16x3x80x80x80_0_0_0_0_5)
        shapeCasts_S16x3x80x80x80_S16x19200x80 (ix3 b r k)
      = x (cell80 b r (⟨k.val + 5, by omega⟩ : Fin 85)) := by
  refine (shapeCast_apply _ _ (ix3 b r k) (cell80 b r k)
    (by rw [Shape.rowMajor_val_five, Shape.rowMajor_val_three]
        show (((b.val * 3 + r.val / 6400) * 80 + r.val / 80 % 80) * 80 + r.val % 80) * 80 + k.val
          = (b.val * 19200 + r.val) * 80 + k.val
        omega)).trans ?_
  exact extractStridedSlice_apply _ _ _ _ _ (fun a => match a with
    | ⟨0, _⟩ => by show b.val = 0 + b.val; omega
    | ⟨1, _⟩ => by show r.val / 6400 = 0 + r.val / 6400; omega
    | ⟨2, _⟩ => by show r.val / 80 % 80 = 0 + r.val / 80 % 80; omega
    | ⟨3, _⟩ => by show r.val % 80 = 0 + r.val % 80; omega
    | ⟨4, _⟩ => by show k.val + 5 = 5 + k.val; omega)

/-- Column c of a flattened box [16, 19200, 4], its unit axis dropped, at (b, r): the box at (b, r, c). The slice's
    offsets are given by their three values, so the one lemma serves the four columns. -/
theorem col80_apply (y : S16x19200x4.Idx → α) (off : Fin 3 → Nat) (h : S16x19200x4.Slices off S16x19200x1)
    (c : Fin 4) (h0 : off 0 = 0) (h1 : off 1 = 0) (h2 : off 2 = c.val) (b : Fin 16) (r : Fin 19200) :
    shapeCast S16x19200 (extractStridedSlice S16x19200x1 off y h) shapeCasts_S16x19200x1_S16x19200 (ix2 b r)
      = y (ix3 b r c) := by
  refine (shapeCast_apply _ _ (ix2 b r) (ix3 b r (⟨0, by omega⟩ : Fin 1))
    (by rw [Shape.rowMajor_val_three, Shape.rowMajor_val_two]
        show (b.val * 19200 + r.val) * 1 + 0 = b.val * 19200 + r.val
        omega)).trans ?_
  exact extractStridedSlice_apply _ _ _ _ _ (fun a => match a with
    | ⟨0, _⟩ => by show b.val = off 0 + b.val; omega
    | ⟨1, _⟩ => by show r.val = off 1 + r.val; omega
    | ⟨2, _⟩ => by show c.val = off 2 + 0; omega)

end Cert.ReferenceIdeal.RefValue

end
-- ==== Proof.RefRows40.lean ====
/-
  The reference's layout operations on the feature map of side 40, read at an index.

  The reference cuts the last axis of the map [16, 3, 40, 40, 85] (channels 0–3: the box; channel 4: the confidence;
  channels 5–84: the classes) and flattens anchor and cell into one axis of 3·40·40 = 4800 rows. A reshape keeps
  the row-major order, so row r of image b is anchor r / 1600, cell ((r / 40) mod 40, r mod 40): the position
  ((b·3 + a)·40 + h)·40 + w among the cells is b·4800 + r. Each lemma below reads one such chain of a slice and
  one or two reshapes at (b, r[, channel]) as the map's entry at that cell; the last one reads a single column of
  the flattened box [16, 4800, 4] as a matrix [16, 4800].
-/
import proofs.«106048_j74655121539887_2_alg».proof.Proof.Gen.ReferenceIdeal
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

variable {α : Type}

/-- Row r's cell of image b in an array [16, 3, 40, 40, m], at channel j: anchor r / 1600, cell
    ((r / 40) mod 40, r mod 40). -/
abbrev cell40 {m : Nat} (b : Fin 16) (r : Fin 4800) (j : Fin m) : (⟨5, ![16, 3, 40, 40, m]⟩ : Shape).Idx :=
  ix5 b (⟨r.val / 1600, by omega⟩ : Fin 3) (⟨r.val / 40 % 40, by omega⟩ : Fin 40) (⟨r.val % 40, by omega⟩ : Fin 40) j

/-- Channels 0–3 of the map, flattened to [16, 4800, 4], at (b, r, c): the map at row r's cell, channel c. -/
theorem box40_apply (x : S16x3x40x40x85.Idx → α) (b : Fin 16) (r : Fin 4800) (c : Fin 4) :
    shapeCast S16x4800x4 (extractStridedSlice S16x3x40x40x4 ![0, 0, 0, 0, 0] x slices_S16x3x40x40x85_S16x3x40x40x4_0_0_0_0_0)
        shapeCasts_S16x3x40x40x4_S16x4800x4 (ix3 b r c)
      = x (cell40 b r (⟨c.val, by omega⟩ : Fin 85)) := by
  refine (shapeCast_apply _ _ (ix3 b r c) (cell40 b r c)
    (by rw [Shape.rowMajor_val_five, Shape.rowMajor_val_three]
        show (((b.val * 3 + r.val / 1600) * 40 + r.val / 40 % 40) * 40 + r.val % 40) * 4 + c.val
          = (b.val * 4800 + r.val) * 4 + c.val
        omega)).trans ?_
  exact extractStridedSlice_apply _ _ _ _ _ (fun a => match a with
    | ⟨0, _⟩ => by show b.val = 0 + b.val; omega
    | ⟨1, _⟩ => by show r.val / 1600 = 0 + r.val / 1600; omega
    | ⟨2, _⟩ => by show r.val / 40 % 40 = 0 + r.val / 40 % 40; omega
    | ⟨3, _⟩ => by show r.val % 40 = 0 + r.val % 40; omega
    | ⟨4, _⟩ => by show c.val = 0 + c.val; omega)

/-- Channel 4 of the map, its unit axis dropped and then flattened to [16, 4800], at (b, r): the map at row r's
    cell, channel 4. -/
theorem conf40_apply (x : S16x3x40x40x85.Idx → α) (b : Fin 16) (r : Fin 4800) :
    shapeCast S16x4800 (shapeCast S16x3x40x40
        (extractStridedSlice S16x3x40x40x1 ![0, 0, 0, 0, 4] x slices_S16x3x40x40x85_S16x3x40x40x1_0_0_0_0_4)
        shapeCasts_S16x3x40x40x1_S16x3x40x40) shapeCasts_S16x3x40x40_S16x4800 (ix2 b r)
      = x (cell40 b r (⟨4, by omega⟩ : Fin 85)) := by
  refine (shapeCast_apply _ _ (ix2 b r)
    (ix4 b (⟨r.val / 1600, by omega⟩ : Fin 3) (⟨r.val / 40 % 40, by omega⟩ : Fin 40) (⟨r.val % 40, by omega⟩ : Fin 40))
    (by rw [Shape.rowMajor_val_four, Shape.rowMajor_val_two]
        show ((b.val * 3 + r.val / 1600) * 40 + r.val / 40 % 40) * 40 + r.val % 40 = b.val * 4800 + r.val
        omega)).trans ?_
  refine (shapeCast_apply _ _ _ (cell40 b r (⟨0, by omega⟩ : Fin 1))
    (by rw [Shape.rowMajor_val_five, Shape.rowMajor_val_four]
        show (((b.val * 3 + r.val / 1600) * 40 + r.val / 40 % 40) * 40 + r.val % 40) * 1 + 0
          = ((b.val * 3 + r.val / 1600) * 40 + r.val / 40 % 40) * 40 + r.val % 40
        omega)).trans ?_
  exact extractStridedSlice_apply _ _ _ _ _ (fun a => match a with
    | ⟨0, _⟩ => by show b.val = 0 + b.val; omega
    | ⟨1, _⟩ => by show r.val / 1600 = 0 + r.val / 1600; omega
    | ⟨2, _⟩ => by show r.val / 40 % 40 = 0 + r.val / 40 % 40; omega
    | ⟨3, _⟩ => by show r.val % 40 = 0 + r.val % 40; omega
    | ⟨4, _⟩ => by show 4 = 4 + 0; omega)

/-- Channels 5–84 of the map, flattened to [16, 4800, 80], at (b, r, k): the map at row r's cell, channel k + 5. -/
theorem cls40_apply (x : S16x3x40x40x85.Idx → α) (b : Fin 16) (r : Fin 4800) (k : Fin 80) :
    shapeCast S16x4800x80 (extractStridedSlice S16x3x40x40x80 ![0, 0, 0, 0, 5] x slices_S16x3x40x40x85_S16x3x40x40x80_0_0_0_0_5)
        shapeCasts_S16x3x40x40x80_S16x4800x80 (ix3 b r k)
      = x (cell40 b r (⟨k.val + 5, by omega⟩ : Fin 85)) := by
  refine (shapeCast_apply _ _ (ix3 b r k) (cell40 b r k)
    (by rw [Shape.rowMajor_val_five, Shape.rowMajor_val_three]
        show (((b.val * 3 + r.val / 1600) * 40 + r.val / 40 % 40) * 40 + r.val % 40) * 80 + k.val
          = (b.val * 4800 + r.val) * 80 + k.val
        omega)).trans ?_
  exact extractStridedSlice_apply _ _ _ _ _ (fun a => match a with
    | ⟨0, _⟩ => by show b.val = 0 + b.val; omega
    | ⟨1, _⟩ => by show r.val / 1600 = 0 + r.val / 1600; omega
    | ⟨2, _⟩ => by show r.val / 40 % 40 = 0 + r.val / 40 % 40; omega
    | ⟨3, _⟩ => by show r.val % 40 = 0 + r.val % 40; omega
    | ⟨4, _⟩ => by show k.val + 5 = 5 + k.val; omega)

/-- Column c of a flattened box [16, 4800, 4], its unit axis dropped, at (b, r): the box at (b, r, c). The slice's
    offsets are given by their three values, so the one lemma serves the four columns. -/
theorem col40_apply (y : S16x4800x4.Idx → α) (off : Fin 3 → Nat) (h : S16x4800x4.Slices off S16x4800x1)
    (c : Fin 4) (h0 : off 0 = 0) (h1 : off 1 = 0) (h2 : off 2 = c.val) (b : Fin 16) (r : Fin 4800) :
    shapeCast S16x4800 (extractStridedSlice S16x4800x1 off y h) shapeCasts_S16x4800x1_S16x4800 (ix2 b r)
      = y (ix3 b r c) := by
  refine (shapeCast_apply _ _ (ix2 b r) (ix3 b r (⟨0, by omega⟩ : Fin 1))
    (by rw [Shape.rowMajor_val_three, Shape.rowMajor_val_two]
        show (b.val * 4800 + r.val) * 1 + 0 = b.val * 4800 + r.val
        omega)).trans ?_
  exact extractStridedSlice_apply _ _ _ _ _ (fun a => match a with
    | ⟨0, _⟩ => by show b.val = off 0 + b.val; omega
    | ⟨1, _⟩ => by show r.val = off 1 + r.val; omega
    | ⟨2, _⟩ => by show c.val = off 2 + 0; omega)

end Cert.ReferenceIdeal.RefValue

end
-- ==== Proof.RefRows20.lean ====
/-
  The reference's layout operations on the feature map of side 20, read at an index.

  The reference cuts the last axis of the map [16, 3, 20, 20, 85] (channels 0–3: the box; channel 4: the confidence;
  channels 5–84: the classes) and flattens anchor and cell into one axis of 3·20·20 = 1200 rows. A reshape keeps
  the row-major order, so row r of image b is anchor r / 400, cell ((r / 20) mod 20, r mod 20): the position
  ((b·3 + a)·20 + h)·20 + w among the cells is b·1200 + r. Each lemma below reads one such chain of a slice and
  one or two reshapes at (b, r[, channel]) as the map's entry at that cell; the last one reads a single column of
  the flattened box [16, 1200, 4] as a matrix [16, 1200].
-/
import proofs.«106048_j74655121539887_2_alg».proof.Proof.Gen.ReferenceIdeal
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

variable {α : Type}

/-- Row r's cell of image b in an array [16, 3, 20, 20, m], at channel j: anchor r / 400, cell
    ((r / 20) mod 20, r mod 20). -/
abbrev cell20 {m : Nat} (b : Fin 16) (r : Fin 1200) (j : Fin m) : (⟨5, ![16, 3, 20, 20, m]⟩ : Shape).Idx :=
  ix5 b (⟨r.val / 400, by omega⟩ : Fin 3) (⟨r.val / 20 % 20, by omega⟩ : Fin 20) (⟨r.val % 20, by omega⟩ : Fin 20) j

/-- Channels 0–3 of the map, flattened to [16, 1200, 4], at (b, r, c): the map at row r's cell, channel c. -/
theorem box20_apply (x : S16x3x20x20x85.Idx → α) (b : Fin 16) (r : Fin 1200) (c : Fin 4) :
    shapeCast S16x1200x4 (extractStridedSlice S16x3x20x20x4 ![0, 0, 0, 0, 0] x slices_S16x3x20x20x85_S16x3x20x20x4_0_0_0_0_0)
        shapeCasts_S16x3x20x20x4_S16x1200x4 (ix3 b r c)
      = x (cell20 b r (⟨c.val, by omega⟩ : Fin 85)) := by
  refine (shapeCast_apply _ _ (ix3 b r c) (cell20 b r c)
    (by rw [Shape.rowMajor_val_five, Shape.rowMajor_val_three]
        show (((b.val * 3 + r.val / 400) * 20 + r.val / 20 % 20) * 20 + r.val % 20) * 4 + c.val
          = (b.val * 1200 + r.val) * 4 + c.val
        omega)).trans ?_
  exact extractStridedSlice_apply _ _ _ _ _ (fun a => match a with
    | ⟨0, _⟩ => by show b.val = 0 + b.val; omega
    | ⟨1, _⟩ => by show r.val / 400 = 0 + r.val / 400; omega
    | ⟨2, _⟩ => by show r.val / 20 % 20 = 0 + r.val / 20 % 20; omega
    | ⟨3, _⟩ => by show r.val % 20 = 0 + r.val % 20; omega
    | ⟨4, _⟩ => by show c.val = 0 + c.val; omega)

/-- Channel 4 of the map, its unit axis dropped and then flattened to [16, 1200], at (b, r): the map at row r's
    cell, channel 4. -/
theorem conf20_apply (x : S16x3x20x20x85.Idx → α) (b : Fin 16) (r : Fin 1200) :
    shapeCast S16x1200 (shapeCast S16x3x20x20
        (extractStridedSlice S16x3x20x20x1 ![0, 0, 0, 0, 4] x slices_S16x3x20x20x85_S16x3x20x20x1_0_0_0_0_4)
        shapeCasts_S16x3x20x20x1_S16x3x20x20) shapeCasts_S16x3x20x20_S16x1200 (ix2 b r)
      = x (cell20 b r (⟨4, by omega⟩ : Fin 85)) := by
  refine (shapeCast_apply _ _ (ix2 b r)
    (ix4 b (⟨r.val / 400, by omega⟩ : Fin 3) (⟨r.val / 20 % 20, by omega⟩ : Fin 20) (⟨r.val % 20, by omega⟩ : Fin 20))
    (by rw [Shape.rowMajor_val_four, Shape.rowMajor_val_two]
        show ((b.val * 3 + r.val / 400) * 20 + r.val / 20 % 20) * 20 + r.val % 20 = b.val * 1200 + r.val
        omega)).trans ?_
  refine (shapeCast_apply _ _ _ (cell20 b r (⟨0, by omega⟩ : Fin 1))
    (by rw [Shape.rowMajor_val_five, Shape.rowMajor_val_four]
        show (((b.val * 3 + r.val / 400) * 20 + r.val / 20 % 20) * 20 + r.val % 20) * 1 + 0
          = ((b.val * 3 + r.val / 400) * 20 + r.val / 20 % 20) * 20 + r.val % 20
        omega)).trans ?_
  exact extractStridedSlice_apply _ _ _ _ _ (fun a => match a with
    | ⟨0, _⟩ => by show b.val = 0 + b.val; omega
    | ⟨1, _⟩ => by show r.val / 400 = 0 + r.val / 400; omega
    | ⟨2, _⟩ => by show r.val / 20 % 20 = 0 + r.val / 20 % 20; omega
    | ⟨3, _⟩ => by show r.val % 20 = 0 + r.val % 20; omega
    | ⟨4, _⟩ => by show 4 = 4 + 0; omega)

/-- Channels 5–84 of the map, flattened to [16, 1200, 80], at (b, r, k): the map at row r's cell, channel k + 5. -/
theorem cls20_apply (x : S16x3x20x20x85.Idx → α) (b : Fin 16) (r : Fin 1200) (k : Fin 80) :
    shapeCast S16x1200x80 (extractStridedSlice S16x3x20x20x80 ![0, 0, 0, 0, 5] x slices_S16x3x20x20x85_S16x3x20x20x80_0_0_0_0_5)
        shapeCasts_S16x3x20x20x80_S16x1200x80 (ix3 b r k)
      = x (cell20 b r (⟨k.val + 5, by omega⟩ : Fin 85)) := by
  refine (shapeCast_apply _ _ (ix3 b r k) (cell20 b r k)
    (by rw [Shape.rowMajor_val_five, Shape.rowMajor_val_three]
        show (((b.val * 3 + r.val / 400) * 20 + r.val / 20 % 20) * 20 + r.val % 20) * 80 + k.val
          = (b.val * 1200 + r.val) * 80 + k.val
        omega)).trans ?_
  exact extractStridedSlice_apply _ _ _ _ _ (fun a => match a with
    | ⟨0, _⟩ => by show b.val = 0 + b.val; omega
    | ⟨1, _⟩ => by show r.val / 400 = 0 + r.val / 400; omega
    | ⟨2, _⟩ => by show r.val / 20 % 20 = 0 + r.val / 20 % 20; omega
    | ⟨3, _⟩ => by show r.val % 20 = 0 + r.val % 20; omega
    | ⟨4, _⟩ => by show k.val + 5 = 5 + k.val; omega)

/-- Column c of a flattened box [16, 1200, 4], its unit axis dropped, at (b, r): the box at (b, r, c). The slice's
    offsets are given by their three values, so the one lemma serves the four columns. -/
theorem col20_apply (y : S16x1200x4.Idx → α) (off : Fin 3 → Nat) (h : S16x1200x4.Slices off S16x1200x1)
    (c : Fin 4) (h0 : off 0 = 0) (h1 : off 1 = 0) (h2 : off 2 = c.val) (b : Fin 16) (r : Fin 1200) :
    shapeCast S16x1200 (extractStridedSlice S16x1200x1 off y h) shapeCasts_S16x1200x1_S16x1200 (ix2 b r)
      = y (ix3 b r c) := by
  refine (shapeCast_apply _ _ (ix2 b r) (ix3 b r (⟨0, by omega⟩ : Fin 1))
    (by rw [Shape.rowMajor_val_three, Shape.rowMajor_val_two]
        show (b.val * 1200 + r.val) * 1 + 0 = b.val * 1200 + r.val
        omega)).trans ?_
  exact extractStridedSlice_apply _ _ _ _ _ (fun a => match a with
    | ⟨0, _⟩ => by show b.val = off 0 + b.val; omega
    | ⟨1, _⟩ => by show r.val = off 1 + r.val; omega
    | ⟨2, _⟩ => by show c.val = off 2 + 0; omega)

end Cert.ReferenceIdeal.RefValue

end
-- ==== Proof.RefStack.lean ====
/-
  The reference's concatenations, read at an index.

  The result [16, 25200, 85] is three arrays laid side by side along the channel axis — the boxes (4 channels), the
  confidence (1) and the classes (80) —, each of them the three maps' arrays laid end to end along the row axis
  (19200 + 4800 + 1200 rows), and each map's box four matrices stacked as its four columns. A concatenation read at
  an index is the piece whose span along the axis holds the index's coordinate, read at that coordinate less the
  extents of the pieces before it. The choice among the three maps is named once (`rowsel`), so that the three
  row-wise concatenations and the specification's own case split are the same function of three families.
-/
import proofs.«106048_j74655121539887_2_alg».proof.Proof.Gen.ReferenceIdeal
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

variable {α : Type}

/-! ## The map a row belongs to -/

/-- Of three families over the rows of the three maps, the one row n of the result belongs to, at n less the rows
    of the maps before it. -/
def rowsel {β : Type} (A0 : Fin 16 → Fin 19200 → β) (A1 : Fin 16 → Fin 4800 → β) (A2 : Fin 16 → Fin 1200 → β)
    (b : Fin 16) (n : Fin 25200) : β :=
  if h0 : n.val < 19200 then A0 b ⟨n.val, h0⟩
  else if h1 : n.val < 24000 then A1 b ⟨n.val - 19200, by omega⟩
  else A2 b ⟨n.val - 24000, by omega⟩

/-- Families equal map by map give equal choices. -/
theorem rowsel_congr {β : Type} {A0 B0 : Fin 16 → Fin 19200 → β} {A1 B1 : Fin 16 → Fin 4800 → β}
    {A2 B2 : Fin 16 → Fin 1200 → β} (h0 : ∀ b r, A0 b r = B0 b r) (h1 : ∀ b r, A1 b r = B1 b r)
    (h2 : ∀ b r, A2 b r = B2 b r) (b : Fin 16) (n : Fin 25200) : rowsel A0 A1 A2 b n = rowsel B0 B1 B2 b n := by
  unfold rowsel
  split
  · exact h0 _ _
  · split
    · exact h1 _ _
    · exact h2 _ _

/-! ## The three maps end to end -/

/-- The three maps' arrays laid end to end along the row axis of [16, 25200, 4], at row n: the map that row n belongs to,
    at n less the rows before it. -/
theorem rows4_apply (u0 : S16x19200x4.Idx → α) (u1 : S16x4800x4.Idx → α) (u2 : S16x1200x4.Idx → α)
    (b : Fin 16) (n : Fin 25200) (c : Fin 4) :
    concatenate S16x25200x4 1 [⟨S16x19200x4, u0⟩, ⟨S16x4800x4, u1⟩, ⟨S16x1200x4, u2⟩]
        concatenates_S16x19200x4_S16x4800x4_S16x1200x4_S16x25200x4_d1 (ix3 b n c)
      = rowsel (fun b r => u0 (ix3 b r c)) (fun b r => u1 (ix3 b r c)) (fun b r => u2 (ix3 b r c)) b n := by
  unfold rowsel
  split
  · next h0 =>
    exact concatenate_apply_piece 1 _ _ (ix3 b n c) 0 (by show 0 < 3; omega) S16x19200x4 u0 rfl rfl 0 rfl
      (ix3 b (⟨n.val, h0⟩ : Fin 19200) c) (fun a ha => by
        match a with
        | ⟨0, _⟩ => rfl
        | ⟨1, _⟩ => exact absurd rfl ha
        | ⟨2, _⟩ => rfl)
      (by show 0 + n.val = n.val; omega)
  · next h0 =>
    split
    · next h1 =>
      exact concatenate_apply_piece 1 _ _ (ix3 b n c) 1 (by show 1 < 3; omega) S16x4800x4 u1 rfl rfl 19200 rfl
        (ix3 b (⟨n.val - 19200, by omega⟩ : Fin 4800) c) (fun a ha => by
        match a with
        | ⟨0, _⟩ => rfl
        | ⟨1, _⟩ => exact absurd rfl ha
        | ⟨2, _⟩ => rfl)
        (by show 19200 + (n.val - 19200) = n.val; omega)
    · next h1 =>
      exact concatenate_apply_piece 1 _ _ (ix3 b n c) 2 (by show 2 < 3; omega) S16x1200x4 u2 rfl rfl 24000 rfl
        (ix3 b (⟨n.val - 24000, by omega⟩ : Fin 1200) c) (fun a ha => by
        match a with
        | ⟨0, _⟩ => rfl
        | ⟨1, _⟩ => exact absurd rfl ha
        | ⟨2, _⟩ => rfl)
        (by show 24000 + (n.val - 24000) = n.val; omega)

/-- The three maps' arrays laid end to end along the row axis of [16, 25200], at row n: the map that row n belongs to,
    at n less the rows before it. -/
theorem rows_apply (u0 : S16x19200.Idx → α) (u1 : S16x4800.Idx → α) (u2 : S16x1200.Idx → α)
    (b : Fin 16) (n : Fin 25200) :
    concatenate S16x25200 1 [⟨S16x19200, u0⟩, ⟨S16x4800, u1⟩, ⟨S16x1200, u2⟩]
        concatenates_S16x19200_S16x4800_S16x1200_S16x25200_d1 (ix2 b n)
      = rowsel (fun b r => u0 (ix2 b r)) (fun b r => u1 (ix2 b r)) (fun b r => u2 (ix2 b r)) b n := by
  unfold rowsel
  split
  · next h0 =>
    exact concatenate_apply_piece 1 _ _ (ix2 b n) 0 (by show 0 < 3; omega) S16x19200 u0 rfl rfl 0 rfl
      (ix2 b (⟨n.val, h0⟩ : Fin 19200)) (fun a ha => by
        match a with
        | ⟨0, _⟩ => rfl
        | ⟨1, _⟩ => exact absurd rfl ha)
      (by show 0 + n.val = n.val; omega)
  · next h0 =>
    split
    · next h1 =>
      exact concatenate_apply_piece 1 _ _ (ix2 b n) 1 (by show 1 < 3; omega) S16x4800 u1 rfl rfl 19200 rfl
        (ix2 b (⟨n.val - 19200, by omega⟩ : Fin 4800)) (fun a ha => by
        match a with
        | ⟨0, _⟩ => rfl
        | ⟨1, _⟩ => exact absurd rfl ha)
        (by show 19200 + (n.val - 19200) = n.val; omega)
    · next h1 =>
      exact concatenate_apply_piece 1 _ _ (ix2 b n) 2 (by show 2 < 3; omega) S16x1200 u2 rfl rfl 24000 rfl
        (ix2 b (⟨n.val - 24000, by omega⟩ : Fin 1200)) (fun a ha => by
        match a with
        | ⟨0, _⟩ => rfl
        | ⟨1, _⟩ => exact absurd rfl ha)
        (by show 24000 + (n.val - 24000) = n.val; omega)

/-- The three maps' arrays laid end to end along the row axis of [16, 25200, 80], at row n: the map that row n belongs to,
    at n less the rows before it. -/
theorem rows80_apply (u0 : S16x19200x80.Idx → α) (u1 : S16x4800x80.Idx → α) (u2 : S16x1200x80.Idx → α)
    (b : Fin 16) (n : Fin 25200) (c : Fin 80) :
    concatenate S16x25200x80 1 [⟨S16x19200x80, u0⟩, ⟨S16x4800x80, u1⟩, ⟨S16x1200x80, u2⟩]
        concatenates_S16x19200x80_S16x4800x80_S16x1200x80_S16x25200x80_d1 (ix3 b n c)
      = rowsel (fun b r => u0 (ix3 b r c)) (fun b r => u1 (ix3 b r c)) (fun b r => u2 (ix3 b r c)) b n := by
  unfold rowsel
  split
  · next h0 =>
    exact concatenate_apply_piece 1 _ _ (ix3 b n c) 0 (by show 0 < 3; omega) S16x19200x80 u0 rfl rfl 0 rfl
      (ix3 b (⟨n.val, h0⟩ : Fin 19200) c) (fun a ha => by
        match a with
        | ⟨0, _⟩ => rfl
        | ⟨1, _⟩ => exact absurd rfl ha
        | ⟨2, _⟩ => rfl)
      (by show 0 + n.val = n.val; omega)
  · next h0 =>
    split
    · next h1 =>
      exact concatenate_apply_piece 1 _ _ (ix3 b n c) 1 (by show 1 < 3; omega) S16x4800x80 u1 rfl rfl 19200 rfl
        (ix3 b (⟨n.val - 19200, by omega⟩ : Fin 4800) c) (fun a ha => by
        match a with
        | ⟨0, _⟩ => rfl
        | ⟨1, _⟩ => exact absurd rfl ha
        | ⟨2, _⟩ => rfl)
        (by show 19200 + (n.val - 19200) = n.val; omega)
    · next h1 =>
      exact concatenate_apply_piece 1 _ _ (ix3 b n c) 2 (by show 2 < 3; omega) S16x1200x80 u2 rfl rfl 24000 rfl
        (ix3 b (⟨n.val - 24000, by omega⟩ : Fin 1200) c) (fun a ha => by
        match a with
        | ⟨0, _⟩ => rfl
        | ⟨1, _⟩ => exact absurd rfl ha
        | ⟨2, _⟩ => rfl)
        (by show 24000 + (n.val - 24000) = n.val; omega)

/-! ## A map's box from its four columns -/

/-- A matrix [16, 19200] given a trailing unit axis, at (b, r, 0): the matrix at (b, r). -/
theorem unitCol19200_apply (y : S16x19200.Idx → α) (b : Fin 16) (r : Fin 19200) (z : Fin 1) :
    broadcastInDim S16x19200x1 ![0, 1] bcast_S16x19200_S16x19200x1_0_1 y (ix3 b r z) = y (ix2 b r) :=
  broadcastInDim_apply _ _ _ _ (ix2 b r) (fun a => match a with
    | ⟨0, _⟩ => rfl
    | ⟨1, _⟩ => rfl)

/-- Four matrices [16, 19200] stacked as the four columns of [16, 19200, 4], at (b, r, c): the c-th of them at (b, r). -/
theorem cols19200_apply (p q s t : S16x19200.Idx → α) (b : Fin 16) (r : Fin 19200) (c : Fin 4) :
    concatenate S16x19200x4 2
        [⟨S16x19200x1, broadcastInDim S16x19200x1 ![0, 1] bcast_S16x19200_S16x19200x1_0_1 p⟩,
         ⟨S16x19200x1, broadcastInDim S16x19200x1 ![0, 1] bcast_S16x19200_S16x19200x1_0_1 q⟩,
         ⟨S16x19200x1, broadcastInDim S16x19200x1 ![0, 1] bcast_S16x19200_S16x19200x1_0_1 s⟩,
         ⟨S16x19200x1, broadcastInDim S16x19200x1 ![0, 1] bcast_S16x19200_S16x19200x1_0_1 t⟩]
        concatenates_S16x19200x1_S16x19200x1_S16x19200x1_S16x19200x1_S16x19200x4_d2 (ix3 b r c)
      = if c.val = 0 then p (ix2 b r) else if c.val = 1 then q (ix2 b r) else if c.val = 2 then s (ix2 b r)
        else t (ix2 b r) := by
  have hc : c.val < 4 := c.isLt
  split
  · next h => exact (concatenate_apply_piece 2 _ _ (ix3 b r c) 0 (by show 0 < 4; omega) S16x19200x1 _ rfl rfl 0 rfl
        (ix3 b r (⟨0, by omega⟩ : Fin 1))
        (fun a ha => by
          match a with
          | ⟨0, _⟩ => rfl
          | ⟨1, _⟩ => rfl
          | ⟨2, _⟩ => exact absurd rfl ha)
        (by show 0 + 0 = c.val; omega)).trans (unitCol19200_apply p b r _)
  · next h0 =>
    split
    · next h => exact (concatenate_apply_piece 2 _ _ (ix3 b r c) 1 (by show 1 < 4; omega) S16x19200x1 _ rfl rfl 1 rfl
        (ix3 b r (⟨0, by omega⟩ : Fin 1))
        (fun a ha => by
          match a with
          | ⟨0, _⟩ => rfl
          | ⟨1, _⟩ => rfl
          | ⟨2, _⟩ => exact absurd rfl ha)
        (by show 1 + 0 = c.val; omega)).trans (unitCol19200_apply q b r _)
    · next h1 =>
      split
      · next h => exact (concatenate_apply_piece 2 _ _ (ix3 b r c) 2 (by show 2 < 4; omega) S16x19200x1 _ rfl rfl 2 rfl
        (ix3 b r (⟨0, by omega⟩ : Fin 1))
        (fun a ha => by
          match a with
          | ⟨0, _⟩ => rfl
          | ⟨1, _⟩ => rfl
          | ⟨2, _⟩ => exact absurd rfl ha)
        (by show 2 + 0 = c.val; omega)).trans (unitCol19200_apply s b r _)
      · next h2 => exact (concatenate_apply_piece 2 _ _ (ix3 b r c) 3 (by show 3 < 4; omega) S16x19200x1 _ rfl rfl 3 rfl
        (ix3 b r (⟨0, by omega⟩ : Fin 1))
        (fun a ha => by
          match a with
          | ⟨0, _⟩ => rfl
          | ⟨1, _⟩ => rfl
          | ⟨2, _⟩ => exact absurd rfl ha)
        (by show 3 + 0 = c.val; omega)).trans (unitCol19200_apply t b r _)

/-- A matrix [16, 4800] given a trailing unit axis, at (b, r, 0): the matrix at (b, r). -/
theorem unitCol4800_apply (y : S16x4800.Idx → α) (b : Fin 16) (r : Fin 4800) (z : Fin 1) :
    broadcastInDim S16x4800x1 ![0, 1] bcast_S16x4800_S16x4800x1_0_1 y (ix3 b r z) = y (ix2 b r) :=
  broadcastInDim_apply _ _ _ _ (ix2 b r) (fun a => match a with
    | ⟨0, _⟩ => rfl
    | ⟨1, _⟩ => rfl)

/-- Four matrices [16, 4800] stacked as the four columns of [16, 4800, 4], at (b, r, c): the c-th of them at (b, r). -/
theorem cols4800_apply (p q s t : S16x4800.Idx → α) (b : Fin 16) (r : Fin 4800) (c : Fin 4) :
    concatenate S16x4800x4 2
        [⟨S16x4800x1, broadcastInDim S16x4800x1 ![0, 1] bcast_S16x4800_S16x4800x1_0_1 p⟩,
         ⟨S16x4800x1, broadcastInDim S16x4800x1 ![0, 1] bcast_S16x4800_S16x4800x1_0_1 q⟩,
         ⟨S16x4800x1, broadcastInDim S16x4800x1 ![0, 1] bcast_S16x4800_S16x4800x1_0_1 s⟩,
         ⟨S16x4800x1, broadcastInDim S16x4800x1 ![0, 1] bcast_S16x4800_S16x4800x1_0_1 t⟩]
        concatenates_S16x4800x1_S16x4800x1_S16x4800x1_S16x4800x1_S16x4800x4_d2 (ix3 b r c)
      = if c.val = 0 then p (ix2 b r) else if c.val = 1 then q (ix2 b r) else if c.val = 2 then s (ix2 b r)
        else t (ix2 b r) := by
  have hc : c.val < 4 := c.isLt
  split
  · next h => exact (concatenate_apply_piece 2 _ _ (ix3 b r c) 0 (by show 0 < 4; omega) S16x4800x1 _ rfl rfl 0 rfl
        (ix3 b r (⟨0, by omega⟩ : Fin 1))
        (fun a ha => by
          match a with
          | ⟨0, _⟩ => rfl
          | ⟨1, _⟩ => rfl
          | ⟨2, _⟩ => exact absurd rfl ha)
        (by show 0 + 0 = c.val; omega)).trans (unitCol4800_apply p b r _)
  · next h0 =>
    split
    · next h => exact (concatenate_apply_piece 2 _ _ (ix3 b r c) 1 (by show 1 < 4; omega) S16x4800x1 _ rfl rfl 1 rfl
        (ix3 b r (⟨0, by omega⟩ : Fin 1))
        (fun a ha => by
          match a with
          | ⟨0, _⟩ => rfl
          | ⟨1, _⟩ => rfl
          | ⟨2, _⟩ => exact absurd rfl ha)
        (by show 1 + 0 = c.val; omega)).trans (unitCol4800_apply q b r _)
    · next h1 =>
      split
      · next h => exact (concatenate_apply_piece 2 _ _ (ix3 b r c) 2 (by show 2 < 4; omega) S16x4800x1 _ rfl rfl 2 rfl
        (ix3 b r (⟨0, by omega⟩ : Fin 1))
        (fun a ha => by
          match a with
          | ⟨0, _⟩ => rfl
          | ⟨1, _⟩ => rfl
          | ⟨2, _⟩ => exact absurd rfl ha)
        (by show 2 + 0 = c.val; omega)).trans (unitCol4800_apply s b r _)
      · next h2 => exact (concatenate_apply_piece 2 _ _ (ix3 b r c) 3 (by show 3 < 4; omega) S16x4800x1 _ rfl rfl 3 rfl
        (ix3 b r (⟨0, by omega⟩ : Fin 1))
        (fun a ha => by
          match a with
          | ⟨0, _⟩ => rfl
          | ⟨1, _⟩ => rfl
          | ⟨2, _⟩ => exact absurd rfl ha)
        (by show 3 + 0 = c.val; omega)).trans (unitCol4800_apply t b r _)

/-- A matrix [16, 1200] given a trailing unit axis, at (b, r, 0): the matrix at (b, r). -/
theorem unitCol1200_apply (y : S16x1200.Idx → α) (b : Fin 16) (r : Fin 1200) (z : Fin 1) :
    broadcastInDim S16x1200x1 ![0, 1] bcast_S16x1200_S16x1200x1_0_1 y (ix3 b r z) = y (ix2 b r) :=
  broadcastInDim_apply _ _ _ _ (ix2 b r) (fun a => match a with
    | ⟨0, _⟩ => rfl
    | ⟨1, _⟩ => rfl)

/-- Four matrices [16, 1200] stacked as the four columns of [16, 1200, 4], at (b, r, c): the c-th of them at (b, r). -/
theorem cols1200_apply (p q s t : S16x1200.Idx → α) (b : Fin 16) (r : Fin 1200) (c : Fin 4) :
    concatenate S16x1200x4 2
        [⟨S16x1200x1, broadcastInDim S16x1200x1 ![0, 1] bcast_S16x1200_S16x1200x1_0_1 p⟩,
         ⟨S16x1200x1, broadcastInDim S16x1200x1 ![0, 1] bcast_S16x1200_S16x1200x1_0_1 q⟩,
         ⟨S16x1200x1, broadcastInDim S16x1200x1 ![0, 1] bcast_S16x1200_S16x1200x1_0_1 s⟩,
         ⟨S16x1200x1, broadcastInDim S16x1200x1 ![0, 1] bcast_S16x1200_S16x1200x1_0_1 t⟩]
        concatenates_S16x1200x1_S16x1200x1_S16x1200x1_S16x1200x1_S16x1200x4_d2 (ix3 b r c)
      = if c.val = 0 then p (ix2 b r) else if c.val = 1 then q (ix2 b r) else if c.val = 2 then s (ix2 b r)
        else t (ix2 b r) := by
  have hc : c.val < 4 := c.isLt
  split
  · next h => exact (concatenate_apply_piece 2 _ _ (ix3 b r c) 0 (by show 0 < 4; omega) S16x1200x1 _ rfl rfl 0 rfl
        (ix3 b r (⟨0, by omega⟩ : Fin 1))
        (fun a ha => by
          match a with
          | ⟨0, _⟩ => rfl
          | ⟨1, _⟩ => rfl
          | ⟨2, _⟩ => exact absurd rfl ha)
        (by show 0 + 0 = c.val; omega)).trans (unitCol1200_apply p b r _)
  · next h0 =>
    split
    · next h => exact (concatenate_apply_piece 2 _ _ (ix3 b r c) 1 (by show 1 < 4; omega) S16x1200x1 _ rfl rfl 1 rfl
        (ix3 b r (⟨0, by omega⟩ : Fin 1))
        (fun a ha => by
          match a with
          | ⟨0, _⟩ => rfl
          | ⟨1, _⟩ => rfl
          | ⟨2, _⟩ => exact absurd rfl ha)
        (by show 1 + 0 = c.val; omega)).trans (unitCol1200_apply q b r _)
    · next h1 =>
      split
      · next h => exact (concatenate_apply_piece 2 _ _ (ix3 b r c) 2 (by show 2 < 4; omega) S16x1200x1 _ rfl rfl 2 rfl
        (ix3 b r (⟨0, by omega⟩ : Fin 1))
        (fun a ha => by
          match a with
          | ⟨0, _⟩ => rfl
          | ⟨1, _⟩ => rfl
          | ⟨2, _⟩ => exact absurd rfl ha)
        (by show 2 + 0 = c.val; omega)).trans (unitCol1200_apply s b r _)
      · next h2 => exact (concatenate_apply_piece 2 _ _ (ix3 b r c) 3 (by show 3 < 4; omega) S16x1200x1 _ rfl rfl 3 rfl
        (ix3 b r (⟨0, by omega⟩ : Fin 1))
        (fun a ha => by
          match a with
          | ⟨0, _⟩ => rfl
          | ⟨1, _⟩ => rfl
          | ⟨2, _⟩ => exact absurd rfl ha)
        (by show 3 + 0 = c.val; omega)).trans (unitCol1200_apply t b r _)

/-! ## Boxes, confidence and classes side by side -/

/-- A channel below 4 of the result is that channel of the boxes. -/
theorem cat85_box (u : S16x25200x4.Idx → α) (v : S16x25200x1.Idx → α) (w : S16x25200x80.Idx → α)
    (b : Fin 16) (n : Fin 25200) (d : Fin 85) (c : Fin 4) (hd : d.val = c.val) :
    concatenate S16x25200x85 2 [⟨S16x25200x4, u⟩, ⟨S16x25200x1, v⟩, ⟨S16x25200x80, w⟩]
        concatenates_S16x25200x4_S16x25200x1_S16x25200x80_S16x25200x85_d2 (ix3 b n d) = u (ix3 b n c) :=
  concatenate_apply_piece 2 _ _ (ix3 b n d) 0 (by show 0 < 3; omega) S16x25200x4 u rfl rfl 0 rfl (ix3 b n c)
    (fun a ha => by
      match a with
      | ⟨0, _⟩ => rfl
      | ⟨1, _⟩ => rfl
      | ⟨2, _⟩ => exact absurd rfl ha)
    (by show 0 + c.val = d.val; omega)

/-- Channel 4 of the result is the confidence: the matrix [16, 25200] given a trailing unit axis. -/
theorem cat85_conf (u : S16x25200x4.Idx → α) (y : S16x25200.Idx → α) (w : S16x25200x80.Idx → α)
    (b : Fin 16) (n : Fin 25200) (d : Fin 85) (hd : d.val = 4) :
    concatenate S16x25200x85 2 [⟨S16x25200x4, u⟩,
          ⟨S16x25200x1, broadcastInDim S16x25200x1 ![0, 1] bcast_S16x25200_S16x25200x1_0_1 y⟩, ⟨S16x25200x80, w⟩]
        concatenates_S16x25200x4_S16x25200x1_S16x25200x80_S16x25200x85_d2 (ix3 b n d) = y (ix2 b n) :=
  (concatenate_apply_piece 2 _ _ (ix3 b n d) 1 (by show 1 < 3; omega) S16x25200x1 _ rfl rfl 4 rfl
    (ix3 b n (⟨0, by omega⟩ : Fin 1))
    (fun a ha => by
      match a with
      | ⟨0, _⟩ => rfl
      | ⟨1, _⟩ => rfl
      | ⟨2, _⟩ => exact absurd rfl ha)
    (by show 4 + 0 = d.val; omega)).trans
  (broadcastInDim_apply _ _ _ _ (ix2 b n) (fun a => match a with
    | ⟨0, _⟩ => rfl
    | ⟨1, _⟩ => rfl))

/-- A channel from 5 on of the result is that channel, 5 less, of the classes. -/
theorem cat85_cls (u : S16x25200x4.Idx → α) (v : S16x25200x1.Idx → α) (w : S16x25200x80.Idx → α)
    (b : Fin 16) (n : Fin 25200) (d : Fin 85) (k : Fin 80) (hd : d.val = 5 + k.val) :
    concatenate S16x25200x85 2 [⟨S16x25200x4, u⟩, ⟨S16x25200x1, v⟩, ⟨S16x25200x80, w⟩]
        concatenates_S16x25200x4_S16x25200x1_S16x25200x80_S16x25200x85_d2 (ix3 b n d) = w (ix3 b n k) :=
  concatenate_apply_piece 2 _ _ (ix3 b n d) 2 (by show 2 < 3; omega) S16x25200x80 w rfl rfl 5 rfl (ix3 b n k)
    (fun a ha => by
      match a with
      | ⟨0, _⟩ => rfl
      | ⟨1, _⟩ => rfl
      | ⟨2, _⟩ => exact absurd rfl ha)
    (by show 5 + k.val = d.val; omega)

end Cert.ReferenceIdeal.RefValue

end
-- ==== Proof.RefArith.lean ====
/-
  The reference's arithmetic, read at an index, against the decoded row.

  At every index the reference's elementwise operations are those of the extended reals: a corner of a box is
  (centre − extent / 2) · side, the opposite corner (the scaled corner + extent / 2) · side, with the quotient by the
  float 2.0 the product with the float 0.5; every later channel is 1 / (1 + e^(−x)), the logistic function. Each lemma
  takes the operand arrays' entries at the index as hypotheses, so it applies to whatever arrays the program has there.
  The float constants are scalars broadcast to the operand's shape: they read the constant's value everywhere.
-/
import proofs.«106048_j74655121539887_2_alg».proof.Proof.DecodeSpec
import Idealize.ShloMosaic.Lib.IdealHost

noncomputable section

namespace Cert.ReferenceIdeal.RefValue

open Idealize.ShloMosaic Idealize.ShloMosaic.ValueIdx Cert.Decode

/-- A float constant broadcast from a scalar reads the constant's value at every index. -/
theorem splat_apply {T : Shape} (h : (⟨0, ![]⟩ : Shape).BroadcastsInDim T ![]) (w : BitVec 32) (j : T.Idx) :
    broadcastInDim T ![] h (constant (F := Ideal) (⟨0, ![]⟩ : Shape) .f32 w) j = Ideal.ofBits .f32 w :=
  broadcastInDim_scalar_apply h _ j

variable {s : Shape}

/-- The first corner: (centre − extent / 2.0) · side is (centre − extent · 0.5) · side. -/
theorem corner_apply (A C T S : FVec Ideal s .f32) (i : s.Idx) (a c sd : EReal)
    (hA : A i = a) (hC : C i = c) (hT : T i = Ideal.ofBits .f32 0x40000000#32) (hS : S i = sd) :
    mulf (subf A (Host.divf C T)) S i = (a - c * half) * sd := by
  show (A i - Ideal.div (C i) (T i)) * S i = _
  rw [hA, hC, hT, hS, div_two]

/-- The opposite corner: (scaled corner + extent / 2.0) · side is (scaled corner + extent · 0.5) · side. -/
theorem far_corner_apply (P C T S : FVec Ideal s .f32) (i : s.Idx) (p c sd : EReal)
    (hP : P i = p) (hC : C i = c) (hT : T i = Ideal.ofBits .f32 0x40000000#32) (hS : S i = sd) :
    mulf (addf P (Host.divf C T)) S i = (p + c * half) * sd := by
  show (P i + Ideal.div (C i) (T i)) * S i = _
  rw [hP, hC, hT, hS, div_two]

/-- 1.0 / (1.0 + e^(−x)) is the logistic function of x. -/
theorem logistic_apply (O₁ O₂ X : FVec Ideal s .f32) (i : s.Idx) (x : EReal)
    (h₁ : O₁ i = Ideal.ofBits .f32 0x3F800000#32) (h₂ : O₂ i = Ideal.ofBits .f32 0x3F800000#32) (hX : X i = x) :
    Host.divf O₁ (addf O₂ (Host.exp (Host.negf X))) i = Ideal.logistic x := by
  show Ideal.div (O₁ i) (O₂ i + Ideal.exp (-(X i))) = _
  rw [h₁, h₂, hX, logistic_spelt]

/-! ## The decoded row, channel by channel -/

/-- The four box channels of a decoded row are the four corner expressions, in order. -/
theorem decode_of_lt (sd : EReal) (x : Fin 85 → EReal) (d : Fin 85) (hd : d.val < 4) :
    decode sd x d
      = if d.val = 0 then (x 0 - x 2 * half) * sd
        else if d.val = 1 then (x 1 - x 3 * half) * sd
        else if d.val = 2 then ((x 0 - x 2 * half) * sd + x 2 * half) * sd
        else ((x 1 - x 3 * half) * sd + x 3 * half) * sd := by
  unfold decode
  by_cases h0 : d.val = 0
  · rw [if_pos h0, if_pos h0]
  · rw [if_neg h0, if_neg h0]
    by_cases h1 : d.val = 1
    · rw [if_pos h1, if_pos h1]
    · rw [if_neg h1, if_neg h1]
      by_cases h2 : d.val = 2
      · rw [if_pos h2, if_pos h2]
      · rw [if_neg h2, if_neg h2, if_pos (by omega)]

/-- From channel 4 on a decoded row is the logistic function of the row. -/
theorem decode_of_ge (sd : EReal) (x : Fin 85 → EReal) (d : Fin 85) (hd : 4 ≤ d.val) :
    decode sd x d = Ideal.logistic (x d) := by
  unfold decode
  rw [if_neg (by omega), if_neg (by omega), if_neg (by omega), if_neg (by omega)]

/-- Four values that are the four corner expressions are, chosen by a channel below 4, the decoded row's channel. -/
theorem box_entry (sd : EReal) (x : Fin 85 → EReal) (vp vq vs vt : EReal) (d : Fin 85) (hd : d.val < 4)
    (hp : vp = (x 0 - x 2 * half) * sd) (hq : vq = (x 1 - x 3 * half) * sd)
    (hs : vs = ((x 0 - x 2 * half) * sd + x 2 * half) * sd) (ht : vt = ((x 1 - x 3 * half) * sd + x 3 * half) * sd) :
    (if d.val = 0 then vp else if d.val = 1 then vq else if d.val = 2 then vs else vt) = decode sd x d := by
  rw [decode_of_lt sd x d hd, hp, hq, hs, ht]

/-- Channel 4 of a decoded row is the logistic function of the row's channel 4. -/
theorem conf_entry (sd : EReal) (x : Fin 85 → EReal) (d : Fin 85) (hd : d.val = 4) :
    decode sd x d = Ideal.logistic (x 4) := by
  rw [decode_of_ge sd x d (by omega)]
  exact congrArg (fun j => Ideal.logistic (x j)) (Fin.ext hd)

/-- Channel 5 + k of a decoded row is the logistic function of the row's channel k + 5. -/
theorem cls_entry (sd : EReal) (x : Fin 85 → EReal) (d : Fin 85) (k : Fin 80) (hd : d.val = 5 + k.val) :
    decode sd x d = Ideal.logistic (x ⟨k.val + 5, by omega⟩) := by
  rw [decode_of_ge sd x d (by omega)]
  exact congrArg (fun j => Ideal.logistic (x j)) (Fin.ext (by show d.val = k.val + 5; omega))

end Cert.ReferenceIdeal.RefValue

end
-- ==== Proof.RefAssemble.lean ====
/-
  The reference's result from its eighteen arrays: four corner matrices, a confidence matrix and a class array for
  each of the three maps. If each of them is, entry by entry, the decoded row's channel it is meant to be, then the
  three concatenations — columns into a box, maps end to end, the three channel groups side by side — give the
  specification's array: a channel below 4 reads a corner matrix, channel 4 the confidence, a later channel the
  classes, each at the map row n belongs to.
-/
import proofs.«106048_j74655121539887_2_alg».proof.Proof.RefStack
import proofs.«106048_j74655121539887_2_alg».proof.Proof.RefArith

noncomputable section

namespace Cert.ReferenceIdeal.RefValue

open Cert.ReferenceIdeal Cert.ReferenceIdeal.Gen Idealize.ShloMosaic Idealize.ShloMosaic.ValueIdx Cert.Decode

/-- The specification's entry is the decoded row of the map that row n belongs to: its case split is `rowsel`. -/
theorem result_rowsel (x0 : S16x3x80x80x85.Idx → EReal) (x1 : S16x3x40x40x85.Idx → EReal) (x2 : S16x3x20x20x85.Idx → EReal)
    (b : Fin 16) (n : Fin 25200) (d : Fin 85) :
    result x0 x1 x2 b n d
      = rowsel (fun b r => decode side80 (row80 x0 b r) d) (fun b r => decode side40 (row40 x1 b r) d)
          (fun b r => decode side20 (row20 x2 b r) d) b n := rfl

set_option maxRecDepth 8192 in
/-- The three concatenations of arrays that are the decoded rows' channels are the specification's array. -/
theorem assemble
    (x0 : S16x3x80x80x85.Idx → EReal) (x1 : S16x3x40x40x85.Idx → EReal) (x2 : S16x3x20x20x85.Idx → EReal)
    (p0 q0 s0 t0 f0 : S16x19200.Idx → EReal) (g0 : S16x19200x80.Idx → EReal)
    (p1 q1 s1 t1 f1 : S16x4800.Idx → EReal) (g1 : S16x4800x80.Idx → EReal)
    (p2 q2 s2 t2 f2 : S16x1200.Idx → EReal) (g2 : S16x1200x80.Idx → EReal)
    (hp0 : ∀ b r, p0 (ix2 b r) = (row80 x0 b r 0 - row80 x0 b r 2 * half) * side80)
    (hq0 : ∀ b r, q0 (ix2 b r) = (row80 x0 b r 1 - row80 x0 b r 3 * half) * side80)
    (hs0 : ∀ b r, s0 (ix2 b r)
      = ((row80 x0 b r 0 - row80 x0 b r 2 * half) * side80 + row80 x0 b r 2 * half) * side80)
    (ht0 : ∀ b r, t0 (ix2 b r)
      = ((row80 x0 b r 1 - row80 x0 b r 3 * half) * side80 + row80 x0 b r 3 * half) * side80)
    (hf0 : ∀ b r, f0 (ix2 b r) = Ideal.logistic (row80 x0 b r 4))
    (hg0 : ∀ b r (k : Fin 80), g0 (ix3 b r k) = Ideal.logistic (row80 x0 b r ⟨k.val + 5, by omega⟩))
    (hp1 : ∀ b r, p1 (ix2 b r) = (row40 x1 b r 0 - row40 x1 b r 2 * half) * side40)
    (hq1 : ∀ b r, q1 (ix2 b r) = (row40 x1 b r 1 - row40 x1 b r 3 * half) * side40)
    (hs1 : ∀ b r, s1 (ix2 b r)
      = ((row40 x1 b r 0 - row40 x1 b r 2 * half) * side40 + row40 x1 b r 2 * half) * side40)
    (ht1 : ∀ b r, t1 (ix2 b r)
      = ((row40 x1 b r 1 - row40 x1 b r 3 * half) * side40 + row40 x1 b r 3 * half) * side40)
    (hf1 : ∀ b r, f1 (ix2 b r) = Ideal.logistic (row40 x1 b r 4))
    (hg1 : ∀ b r (k : Fin 80), g1 (ix3 b r k) = Ideal.logistic (row40 x1 b r ⟨k.val + 5, by omega⟩))
    (hp2 : ∀ b r, p2 (ix2 b r) = (row20 x2 b r 0 - row20 x2 b r 2 * half) * side20)
    (hq2 : ∀ b r, q2 (ix2 b r) = (row20 x2 b r 1 - row20 x2 b r 3 * half) * side20)
    (hs2 : ∀ b r, s2 (ix2 b r)
      = ((row20 x2 b r 0 - row20 x2 b r 2 * half) * side20 + row20 x2 b r 2 * half) * side20)
    (ht2 : ∀ b r, t2 (ix2 b r)
      = ((row20 x2 b r 1 - row20 x2 b r 3 * half) * side20 + row20 x2 b r 3 * half) * side20)
    (hf2 : ∀ b r, f2 (ix2 b r) = Ideal.logistic (row20 x2 b r 4))
    (hg2 : ∀ b r (k : Fin 80), g2 (ix3 b r k) = Ideal.logistic (row20 x2 b r ⟨k.val + 5, by omega⟩)) :
    concatenate S16x25200x85 2
        [⟨S16x25200x4, concatenate S16x25200x4 1
            [⟨S16x19200x4, concatenate S16x19200x4 2
              [⟨S16x19200x1, broadcastInDim S16x19200x1 ![0, 1] bcast_S16x19200_S16x19200x1_0_1 p0⟩,
               ⟨S16x19200x1, broadcastInDim S16x19200x1 ![0, 1] bcast_S16x19200_S16x19200x1_0_1 q0⟩,
               ⟨S16x19200x1, broadcastInDim S16x19200x1 ![0, 1] bcast_S16x19200_S16x19200x1_0_1 s0⟩,
               ⟨S16x19200x1, broadcastInDim S16x19200x1 ![0, 1] bcast_S16x19200_S16x19200x1_0_1 t0⟩]
              concatenates_S16x19200x1_S16x19200x1_S16x19200x1_S16x19200x1_S16x19200x4_d2⟩,
             ⟨S16x4800x4, concatenate S16x4800x4 2
              [⟨S16x4800x1, broadcastInDim S16x4800x1 ![0, 1] bcast_S16x4800_S16x4800x1_0_1 p1⟩,
               ⟨S16x4800x1, broadcastInDim S16x4800x1 ![0, 1] bcast_S16x4800_S16x4800x1_0_1 q1⟩,
               ⟨S16x4800x1, broadcastInDim S16x4800x1 ![0, 1] bcast_S16x4800_S16x4800x1_0_1 s1⟩,
               ⟨S16x4800x1, broadcastInDim S16x4800x1 ![0, 1] bcast_S16x4800_S16x4800x1_0_1 t1⟩]
              concatenates_S16x4800x1_S16x4800x1_S16x4800x1_S16x4800x1_S16x4800x4_d2⟩,
             ⟨S16x1200x4, concatenate S16x1200x4 2
              [⟨S16x1200x1, broadcastInDim S16x1200x1 ![0, 1] bcast_S16x1200_S16x1200x1_0_1 p2⟩,
               ⟨S16x1200x1, broadcastInDim S16x1200x1 ![0, 1] bcast_S16x1200_S16x1200x1_0_1 q2⟩,
               ⟨S16x1200x1, broadcastInDim S16x1200x1 ![0, 1] bcast_S16x1200_S16x1200x1_0_1 s2⟩,
               ⟨S16x1200x1, broadcastInDim S16x1200x1 ![0, 1] bcast_S16x1200_S16x1200x1_0_1 t2⟩]
              concatenates_S16x1200x1_S16x1200x1_S16x1200x1_S16x1200x1_S16x1200x4_d2⟩]
            concatenates_S16x19200x4_S16x4800x4_S16x1200x4_S16x25200x4_d1⟩,
         ⟨S16x25200x1, broadcastInDim S16x25200x1 ![0, 1] bcast_S16x25200_S16x25200x1_0_1
            (concatenate S16x25200 1 [⟨S16x19200, f0⟩, ⟨S16x4800, f1⟩, ⟨S16x1200, f2⟩]
              concatenates_S16x19200_S16x4800_S16x1200_S16x25200_d1)⟩,
         ⟨S16x25200x80, concatenate S16x25200x80 1 [⟨S16x19200x80, g0⟩, ⟨S16x4800x80, g1⟩, ⟨S16x1200x80, g2⟩]
            concatenates_S16x19200x80_S16x4800x80_S16x1200x80_S16x25200x80_d1⟩]
        concatenates_S16x25200x4_S16x25200x1_S16x25200x80_S16x25200x85_d2
      = G x0 x1 x2 := by
  funext i
  obtain ⟨b, n, d, rfl⟩ : ∃ b n d, i = ix3 b n d := ⟨i 0, i 1, i 2, eq_ix3 i⟩
  rw [G_apply, result_rowsel]
  by_cases hd4 : d.val < 4
  · -- a box channel: the boxes, the map row n belongs to, the column d
    refine (cat85_box _ _ _ b n d ⟨d.val, hd4⟩ rfl).trans ?_
    refine (rows4_apply _ _ _ b n _).trans ?_
    refine rowsel_congr (fun b r => ?_) (fun b r => ?_) (fun b r => ?_) b n
    · exact (cols19200_apply p0 q0 s0 t0 b r _).trans
        (box_entry side80 (row80 x0 b r) _ _ _ _ d hd4 (hp0 b r) (hq0 b r) (hs0 b r) (ht0 b r))
    · exact (cols4800_apply p1 q1 s1 t1 b r _).trans
        (box_entry side40 (row40 x1 b r) _ _ _ _ d hd4 (hp1 b r) (hq1 b r) (hs1 b r) (ht1 b r))
    · exact (cols1200_apply p2 q2 s2 t2 b r _).trans
        (box_entry side20 (row20 x2 b r) _ _ _ _ d hd4 (hp2 b r) (hq2 b r) (hs2 b r) (ht2 b r))
  · by_cases hd : d.val = 4
    · -- the confidence
      refine (cat85_conf _ _ _ b n d hd).trans ?_
      refine (rows_apply _ _ _ b n).trans ?_
      refine rowsel_congr (fun b r => ?_) (fun b r => ?_) (fun b r => ?_) b n
      · exact (hf0 b r).trans (conf_entry side80 (row80 x0 b r) d hd).symm
      · exact (hf1 b r).trans (conf_entry side40 (row40 x1 b r) d hd).symm
      · exact (hf2 b r).trans (conf_entry side20 (row20 x2 b r) d hd).symm
    · -- a class channel
      have hd5 : d.val = 5 + (d.val - 5) := by omega
      have hlt : d.val - 5 < 80 := by have := d.isLt; omega
      refine (cat85_cls _ _ _ b n d ⟨d.val - 5, hlt⟩ hd5).trans ?_
      refine (rows80_apply _ _ _ b n _).trans ?_
      refine rowsel_congr (fun b r => ?_) (fun b r => ?_) (fun b r => ?_) b n
      · exact (hg0 b r _).trans (cls_entry side80 (row80 x0 b r) d ⟨d.val - 5, hlt⟩ hd5).symm
      · exact (hg1 b r _).trans (cls_entry side40 (row40 x1 b r) d ⟨d.val - 5, hlt⟩ hd5).symm
      · exact (hg2 b r _).trans (cls_entry side20 (row20 x2 b r) d ⟨d.val - 5, hlt⟩ hd5).symm

end Cert.ReferenceIdeal.RefValue

end
-- ==== Proof.RefResult.lean ====
/-
  The reference program's result is the specification's array.

  The program's result is printed as one term of the three feature maps. Its leaves are, for each map, the flattened
  box (a slice of channels 0–3, reshaped), whose columns give the two first corners (centre − extent / 2) · side and the
  two opposite corners (scaled corner + extent / 2) · side, and the logistic function 1 / (1 + e^(−x)) of the confidence
  channel and of the class channels. Each leaf is read at an index as the decoded row's channel; the concatenations
  above them then give the specification's array.
-/
import proofs.«106048_j74655121539887_2_alg».proof.Proof.Gen.ReferenceIdeal.Run
import proofs.«106048_j74655121539887_2_alg».proof.Proof.RefRows80
import proofs.«106048_j74655121539887_2_alg».proof.Proof.RefRows40
import proofs.«106048_j74655121539887_2_alg».proof.Proof.RefRows20
import proofs.«106048_j74655121539887_2_alg».proof.Proof.RefAssemble

noncomputable section

namespace Cert.ReferenceIdeal.RefValue

open Cert.ReferenceIdeal Cert.ReferenceIdeal.Gen Cert.ReferenceIdeal.Value Idealize.ShloMosaic Idealize.ShloMosaic.TcCoe
  Idealize.ShloMosaic.StableHlo Idealize.ShloMosaic.ValueIdx Cert.Decode

/-! ## Map 0 (side 80) -/

/-- The flattened box of map 0 at (b, r, c) is channel c of the map's row r. -/
theorem box0_apply (V0 : Valuation τ sig (Elt Ideal)) (b : Fin 16) (r : Fin 19200) (c : Fin 4) :
    res_main_v1 (F := Ideal) V0 (ix3 b r c) = row80 (V0 (Proc.devRef .tc main_arg0)) b r ⟨c.val, by omega⟩ := by
  unfold res_main_v1
  exact box80_apply _ b r c

/-- Column c of map 0's flattened box, as a matrix, at (b, r) is channel c of the map's row r. -/
theorem col0_apply (V0 : Valuation τ sig (Elt Ideal)) (off : Fin 3 → Nat) (h : S16x19200x4.Slices off S16x19200x1)
    (c : Fin 4) (h0 : off 0 = 0) (h1 : off 1 = 0) (h2 : off 2 = c.val) (b : Fin 16) (r : Fin 19200) :
    shapeCast S16x19200 (extractStridedSlice S16x19200x1 off (res_main_v1 (F := Ideal) V0) h) shapeCasts_S16x19200x1_S16x19200 (ix2 b r)
      = row80 (V0 (Proc.devRef .tc main_arg0)) b r ⟨c.val, by omega⟩ :=
  (col80_apply _ off h c h0 h1 h2 b r).trans (box0_apply V0 b r c)

/-- Map 0's first corner along x, scaled. -/
theorem x1_0_apply (V0 : Valuation τ sig (Elt Ideal)) (b : Fin 16) (r : Fin 19200) :
    res_main_v27 (F := Ideal) V0 (ix2 b r)
      = (row80 (V0 (Proc.devRef .tc main_arg0)) b r 0 - row80 (V0 (Proc.devRef .tc main_arg0)) b r 2 * half) * side80 := by
  unfold res_main_v27
  exact corner_apply _ _ _ _ _ _ _ _ (col0_apply V0 _ _ 0 rfl rfl rfl b r) (col0_apply V0 _ _ 2 rfl rfl rfl b r)
    (splat_apply _ _ _) (splat_apply _ _ _)

/-- Map 0's first corner along y, scaled. -/
theorem y1_0_apply (V0 : Valuation τ sig (Elt Ideal)) (b : Fin 16) (r : Fin 19200) :
    res_main_v36 (F := Ideal) V0 (ix2 b r)
      = (row80 (V0 (Proc.devRef .tc main_arg0)) b r 1 - row80 (V0 (Proc.devRef .tc main_arg0)) b r 3 * half) * side80 := by
  unfold res_main_v36
  exact corner_apply _ _ _ _ _ _ _ _ (col0_apply V0 _ _ 1 rfl rfl rfl b r) (col0_apply V0 _ _ 3 rfl rfl rfl b r)
    (splat_apply _ _ _) (splat_apply _ _ _)

/-! ## Map 1 (side 40) -/

/-- The flattened box of map 1 at (b, r, c) is channel c of the map's row r. -/
theorem box1_apply (V0 : Valuation τ sig (Elt Ideal)) (b : Fin 16) (r : Fin 4800) (c : Fin 4) :
    res_main_v57 (F := Ideal) V0 (ix3 b r c) = row40 (V0 (Proc.devRef .tc main_arg1)) b r ⟨c.val, by omega⟩ := by
  unfold res_main_v57
  exact box40_apply _ b r c

/-- Column c of map 1's flattened box, as a matrix, at (b, r) is channel c of the map's row r. -/
theorem col1_apply (V0 : Valuation τ sig (Elt Ideal)) (off : Fin 3 → Nat) (h : S16x4800x4.Slices off S16x4800x1)
    (c : Fin 4) (h0 : off 0 = 0) (h1 : off 1 = 0) (h2 : off 2 = c.val) (b : Fin 16) (r : Fin 4800) :
    shapeCast S16x4800 (extractStridedSlice S16x4800x1 off (res_main_v57 (F := Ideal) V0) h) shapeCasts_S16x4800x1_S16x4800 (ix2 b r)
      = row40 (V0 (Proc.devRef .tc main_arg1)) b r ⟨c.val, by omega⟩ :=
  (col40_apply _ off h c h0 h1 h2 b r).trans (box1_apply V0 b r c)

/-- Map 1's first corner along x, scaled. -/
theorem x1_1_apply (V0 : Valuation τ sig (Elt Ideal)) (b : Fin 16) (r : Fin 4800) :
    res_main_v83 (F := Ideal) V0 (ix2 b r)
      = (row40 (V0 (Proc.devRef .tc main_arg1)) b r 0 - row40 (V0 (Proc.devRef .tc main_arg1)) b r 2 * half) * side40 := by
  unfold res_main_v83
  exact corner_apply _ _ _ _ _ _ _ _ (col1_apply V0 _ _ 0 rfl rfl rfl b r) (col1_apply V0 _ _ 2 rfl rfl rfl b r)
    (splat_apply _ _ _) (splat_apply _ _ _)

/-- Map 1's first corner along y, scaled. -/
theorem y1_1_apply (V0 : Valuation τ sig (Elt Ideal)) (b : Fin 16) (r : Fin 4800) :
    res_main_v92 (F := Ideal) V0 (ix2 b r)
      = (row40 (V0 (Proc.devRef .tc main_arg1)) b r 1 - row40 (V0 (Proc.devRef .tc main_arg1)) b r 3 * half) * side40 := by
  unfold res_main_v92
  exact corner_apply _ _ _ _ _ _ _ _ (col1_apply V0 _ _ 1 rfl rfl rfl b r) (col1_apply V0 _ _ 3 rfl rfl rfl b r)
    (splat_apply _ _ _) (splat_apply _ _ _)

/-! ## Map 2 (side 20) -/

/-- The flattened box of map 2 at (b, r, c) is channel c of the map's row r. -/
theorem box2_apply (V0 : Valuation τ sig (Elt Ideal)) (b : Fin 16) (r : Fin 1200) (c : Fin 4) :
    res_main_v113 (F := Ideal) V0 (ix3 b r c) = row20 (V0 (Proc.devRef .tc main_arg2)) b r ⟨c.val, by omega⟩ := by
  unfold res_main_v113
  exact box20_apply _ b r c

/-- Column c of map 2's flattened box, as a matrix, at (b, r) is channel c of the map's row r. -/
theorem col2_apply (V0 : Valuation τ sig (Elt Ideal)) (off : Fin 3 → Nat) (h : S16x1200x4.Slices off S16x1200x1)
    (c : Fin 4) (h0 : off 0 = 0) (h1 : off 1 = 0) (h2 : off 2 = c.val) (b : Fin 16) (r : Fin 1200) :
    shapeCast S16x1200 (extractStridedSlice S16x1200x1 off (res_main_v113 (F := Ideal) V0) h) shapeCasts_S16x1200x1_S16x1200 (ix2 b r)
      = row20 (V0 (Proc.devRef .tc main_arg2)) b r ⟨c.val, by omega⟩ :=
  (col20_apply _ off h c h0 h1 h2 b r).trans (box2_apply V0 b r c)

/-- Map 2's first corner along x, scaled. -/
theorem x1_2_apply (V0 : Valuation τ sig (Elt Ideal)) (b : Fin 16) (r : Fin 1200) :
    res_main_v139 (F := Ideal) V0 (ix2 b r)
      = (row20 (V0 (Proc.devRef .tc main_arg2)) b r 0 - row20 (V0 (Proc.devRef .tc main_arg2)) b r 2 * half) * side20 := by
  unfold res_main_v139
  exact corner_apply _ _ _ _ _ _ _ _ (col2_apply V0 _ _ 0 rfl rfl rfl b r) (col2_apply V0 _ _ 2 rfl rfl rfl b r)
    (splat_apply _ _ _) (splat_apply _ _ _)

/-- Map 2's first corner along y, scaled. -/
theorem y1_2_apply (V0 : Valuation τ sig (Elt Ideal)) (b : Fin 16) (r : Fin 1200) :
    res_main_v148 (F := Ideal) V0 (ix2 b r)
      = (row20 (V0 (Proc.devRef .tc main_arg2)) b r 1 - row20 (V0 (Proc.devRef .tc main_arg2)) b r 3 * half) * side20 := by
  unfold res_main_v148
  exact corner_apply _ _ _ _ _ _ _ _ (col2_apply V0 _ _ 1 rfl rfl rfl b r) (col2_apply V0 _ _ 3 rfl rfl rfl b r)
    (splat_apply _ _ _) (splat_apply _ _ _)

/-! ## The result -/

set_option maxRecDepth 8192 in
/-- The reference's result, as the program's run states it, is the specification's array of the three maps. -/
theorem result_eq (V0 : Valuation τ sig (Elt Ideal)) :
    Cert.ReferenceIdeal.Value.res_main_v172 (F := Ideal) V0
      = Cert.Decode.G (V0 (Proc.devRef .tc main_arg0)) (V0 (Proc.devRef .tc main_arg1)) (V0 (Proc.devRef .tc main_arg2)) := by
  unfold res_main_v172
  refine assemble _ _ _ _ _ _ _ _ _ _ _ _ _ _ _ _ _ _ _ _ _ ?_ ?_ ?_ ?_ ?_ ?_ ?_ ?_ ?_ ?_ ?_ ?_ ?_ ?_ ?_ ?_ ?_ ?_
  -- map 0: the two first corners, the two opposite corners, the confidence, the classes
  · exact x1_0_apply V0
  · exact y1_0_apply V0
  · intro b r
    exact far_corner_apply _ _ _ _ _ _ _ _ (x1_0_apply V0 b r) (col0_apply V0 _ _ 2 rfl rfl rfl b r)
      (splat_apply _ _ _) (splat_apply _ _ _)
  · intro b r
    exact far_corner_apply _ _ _ _ _ _ _ _ (y1_0_apply V0 b r) (col0_apply V0 _ _ 3 rfl rfl rfl b r)
      (splat_apply _ _ _) (splat_apply _ _ _)
  · intro b r
    exact logistic_apply _ _ _ _ _ (splat_apply _ _ _) (splat_apply _ _ _) (conf80_apply _ b r)
  · intro b r k
    exact logistic_apply _ _ _ _ _ (splat_apply _ _ _) (splat_apply _ _ _) (cls80_apply _ b r k)
  -- map 1: the two first corners, the two opposite corners, the confidence, the classes
  · exact x1_1_apply V0
  · exact y1_1_apply V0
  · intro b r
    exact far_corner_apply _ _ _ _ _ _ _ _ (x1_1_apply V0 b r) (col1_apply V0 _ _ 2 rfl rfl rfl b r)
      (splat_apply _ _ _) (splat_apply _ _ _)
  · intro b r
    exact far_corner_apply _ _ _ _ _ _ _ _ (y1_1_apply V0 b r) (col1_apply V0 _ _ 3 rfl rfl rfl b r)
      (splat_apply _ _ _) (splat_apply _ _ _)
  · intro b r
    exact logistic_apply _ _ _ _ _ (splat_apply _ _ _) (splat_apply _ _ _) (conf40_apply _ b r)
  · intro b r k
    exact logistic_apply _ _ _ _ _ (splat_apply _ _ _) (splat_apply _ _ _) (cls40_apply _ b r k)
  -- map 2: the two first corners, the two opposite corners, the confidence, the classes
  · exact x1_2_apply V0
  · exact y1_2_apply V0
  · intro b r
    exact far_corner_apply _ _ _ _ _ _ _ _ (x1_2_apply V0 b r) (col2_apply V0 _ _ 2 rfl rfl rfl b r)
      (splat_apply _ _ _) (splat_apply _ _ _)
  · intro b r
    exact far_corner_apply _ _ _ _ _ _ _ _ (y1_2_apply V0 b r) (col2_apply V0 _ _ 3 rfl rfl rfl b r)
      (splat_apply _ _ _) (splat_apply _ _ _)
  · intro b r
    exact logistic_apply _ _ _ _ _ (splat_apply _ _ _) (splat_apply _ _ _) (conf20_apply _ b r)
  · intro b r k
    exact logistic_apply _ _ _ _ _ (splat_apply _ _ _) (splat_apply _ _ _) (cls20_apply _ b r k)

end Cert.ReferenceIdeal.RefValue

end
-- ==== Proof.lean ====
/-
  The fused YOLO decode kernel against its reference: the three frames, the (empty) idealization ledger, and the
  equality of the two idealized programs' results over the extended reals.

  Both programs compute, for every image b, row n and channel d, the decoded row of the feature map that row n belongs
  to (Proof/DecodeSpec.lean): the kernel tile by tile on a 16 × 21 grid, one dense store per point from the branch of
  the point's map (Proof/BodyIdeal.lean, KernelBlocks, KernelRows, DecodedBlock, KernelValue); the reference with whole-
  array slices, reshapes, arithmetic and three nested concatenations (Proof/RefRows80/40/20, RefStack, RefArith,
  RefAssemble, RefResult). The kernel halves by multiplying with 0.5 and applies the logistic function where the
  reference divides by 2 and spells 1 / (1 + e^(-x)): the same extended reals at every input, so the precondition
  (finite inputs) is never opened. The word-level kernel's frame is the same body proof read at the bit-exact
  instance (Proof/BodyBits.lean).
-/
import proofs.«106048_j74655121539887_2_alg».proof.Defs
import proofs.«106048_j74655121539887_2_alg».proof.Proof.Gen.Kernel
import proofs.«106048_j74655121539887_2_alg».proof.Proof.Gen.KernelIdeal
import proofs.«106048_j74655121539887_2_alg».proof.Proof.Gen.ReferenceIdeal
import proofs.«106048_j74655121539887_2_alg».proof.Proof.Gen.ReferenceIdeal.Run
import proofs.«106048_j74655121539887_2_alg».proof.Proof.Gen.Pre_finite_inputs
import proofs.«106048_j74655121539887_2_alg».proof.Proof.BodyBits
import proofs.«106048_j74655121539887_2_alg».proof.Proof.BodyIdeal
import proofs.«106048_j74655121539887_2_alg».proof.Proof.KernelValue
import proofs.«106048_j74655121539887_2_alg».proof.Proof.RefResult
import Idealize.ShloMosaic.Adequacy
import Idealize.ShloMosaic.Init

noncomputable section

namespace Cert.Proof

open Idealize.ShloMosaic Idealize.ShloMosaic.TcCoe Idealize.SL.Sem Idealize.ShloMosaic.StableHlo

/-- The kernel as printed runs, faults nowhere and leaves its arguments as launched. -/
theorem frame_kernel : Cert.frame_Kernel :=
  fun m ρ _ => Cert.Kernel.Body.frame (F := Bits) m ρ

/-- So does its idealization. -/
theorem frame_kernelIdeal : Cert.frame_KernelIdeal :=
  fun m ρ _ => Cert.KernelIdeal.Body.frame (F := Ideal) m ρ

/-- The reference is host operations only: its run, the result dropped. -/
theorem frame_reference : Cert.frame_ReferenceIdeal :=
  fun m ρ _ => (θ_run Cert.ReferenceIdeal.defs _ _).mono (fun _ h c => (h c).2) (Cert.ReferenceIdeal.Value.run (F := Ideal) m ρ)

/-- Over the extended reals the kernel's result array and the reference's are both the specification's array of the
    arguments, and the arguments agree. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq (launchContents m' c)).trans ?_
  show Cert.Decode.G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [(hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
